-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000x3 : Shape := ⟨2, ![320000, 3]⟩
abbrev S320000x50 : Shape := ⟨2, ![320000, 50]⟩
abbrev S50x256 : Shape := ⟨2, ![50, 256]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x3 : S_.BroadcastsInDim S320000x3 (![] : Fin 0 → Fin S320000x3.rank)
  reducesTo_S320000x3_S_d0_1 : S320000x3.ReducesTo [0, 1] S_
  bcast_S_S320000x50 : S_.BroadcastsInDim S320000x50 (![] : Fin 0 → Fin S320000x50.rank)
  reducesTo_S320000x50_S_d0_1 : S320000x50.ReducesTo [0, 1] S_
  bcast_S_S50x256 : S_.BroadcastsInDim S50x256 (![] : Fin 0 → Fin S50x256.rank)
  reducesTo_S50x256_S_d0_1 : S50x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x256 .f32) (main_arg9 : FVec F S256x256 .f32) (main_arg10 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S256 .f32) (main_arg6 : FVec F S256x256 .f32) (main_arg7 : FVec F S256 .f32) (main_arg8 : FVec F S256x256 .f32) (main_arg9 : FVec F S256x256 .f32) (main_arg10 : FVec F S256 .f32) (main_v13 : IVec S_ 1) (main_v16 : IVec S50x256 1) : IVec S_ 1 :=
  let main_c_5 : IVec S_ 1 := constantI S_ 1 1#1
  let main_v17 : IVec S_ 1 := (fun x v => Host.reduce IntOp.andi x v reducesTo_S50x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S10000x256 .f32) (main_arg1 : IVec S2x320000 32) (main_arg2 : FVec F S320000x3 .f32) (main_arg3 : FVec F S320000x50 .f32) (main_arg4 : FVec F S50x256 .f32) (main_arg5 : FVec F S256 .f32) (main_arg6 : FVec F S256x256 .f32) (main_arg7 : FVec F S256 .f32) (main_arg8 : FVec F S256x256 .f32) (main_arg9 : FVec F S256x256 .f32) (main_arg10 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x3 .f32 := Host.absf main_arg2
  let main_cst_0 : FVec F S_ .f32 := constant S_ .f32 0x7F800000#32
  let main_v5 : FVec F S320000x3 .f32 := broadcastInDim S320000x3 ![] bcast_S_S320000x3 main_cst_0
  let main_v6 : IVec S320000x3 1 := cmpf .olt main_v4 main_v5
  let main_c_1 : IVec S_ 1 := constantI S_ 1 1#1
  let main_v7 : IVec S_ 1 := (fun x v => Host.reduce IntOp.andi x v reducesTo_S320000x3_S_d0_1 h_S_) main_v6 main_c_1
  let main_v8 : IVec S_ 1 := andi main_v3 main_v7
  let main_v9 : FVec F S320000x50 .f32 := Host.absf main_arg3
  let main_cst_2 : FVec F S_ .f32 := constant S_ .f32 0x7F800000#32
  let main_v10 : FVec F S320000x50 .f32 := broadcastInDim S320000x50 ![] bcast_S_S320000x50 main_cst_2
  let main_v11 : IVec S320000x50 1 := cmpf .olt main_v9 main_v10
  let main_c_3 : IVec S_ 1 := constantI S_ 1 1#1
  let main_v12 : IVec S_ 1 := (fun x v => Host.reduce IntOp.andi x v reducesTo_S320000x50_S_d0_1 h_S_) main_v11 main_c_3
  let main_v13 : IVec S_ 1 := andi main_v8 main_v12
  let main_v14 : FVec F S50x256 .f32 := Host.absf main_arg4
  let main_cst_4 : FVec F S_ .f32 := constant S_ .f32 0x7F800000#32
  let main_v15 : FVec F S50x256 .f32 := broadcastInDim S50x256 ![] bcast_S_S50x256 main_cst_4
  let main_v16 : IVec S50x256 1 := cmpf .olt main_v14 main_v15
  fn_part1 (F := F) main_arg5 main_arg6 main_arg7 main_arg8 main_arg9 main_arg10 main_v13 main_v16
-- ==== Kernel.lean ====
abbrev S10000x256 : Shape := ⟨2, ![10000, 256]⟩
abbrev S2x320000 : Shape := ⟨2, ![2, 320000]⟩
abbrev S320000x3 : Shape := ⟨2, ![320000, 3]⟩
abbrev S320000x50 : Shape := ⟨2, ![320000, 50]⟩
abbrev S50x256 : Shape := ⟨2, ![50, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S2000x256 : Shape := ⟨2, ![2000, 256]⟩
abbrev S_ : Shape := ⟨0, ![]⟩
abbrev S320000x1 : Shape := ⟨2, ![320000, 1]⟩
abbrev S320000x256 : Shape := ⟨2, ![320000, 256]⟩
abbrev S6400x50 : Shape := ⟨2, ![6400, 50]⟩
abbrev S6400x3 : Shape := ⟨2, ![6400, 3]⟩
abbrev S6400x256 : Shape := ⟨2, ![6400, 256]⟩
abbrev S6400 : Shape := ⟨1, ![6400]⟩
abbrev S6400x1 : Shape := ⟨2, ![6400, 1]⟩
abbrev S1x256 : Shape := ⟨2, ![1, 256]⟩

abbrev nBuf : Space → Nat
  | .hbm => 31
  | .vmem => 25
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x3, .f32⟩
  | .hbm, ⟨3, _⟩ => ⟨S320000x50, .f32⟩
  | .hbm, ⟨4, _⟩ => ⟨S50x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S10000x256, .f32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x256, .f32⟩
  | .hbm, ⟨25, _⟩ => ⟨S320000x256, .f32⟩
  | .hbm, ⟨26, _⟩ => ⟨S_, .f32⟩
  | .hbm, ⟨27, _⟩ => ⟨S10000x256, .f32⟩
  | .hbm, ⟨28, _⟩ => ⟨S320000x1, .i32⟩
  | .hbm, ⟨29, _⟩ => ⟨S10000x256, .f32⟩
  | .hbm, ⟨30, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S6400x50, .f32⟩
  | .local _ .vmem, ⟨6, _⟩ => ⟨S6400x50, .f32⟩
  | .local _ .vmem, ⟨7, _⟩ => ⟨S6400x3, .f32⟩
  | .local _ .vmem, ⟨8, _⟩ => ⟨S6400x3, .f32⟩
  | .local _ .vmem, ⟨9, _⟩ => ⟨S6400x256, .f32⟩
  | .local _ .vmem, ⟨10, _⟩ => ⟨S6400x256, .f32⟩
  | .local _ .vmem, ⟨11, _⟩ => ⟨S50x256, .f32⟩
  | .local _ .vmem, ⟨12, _⟩ => ⟨S256, .f32⟩
  | .local _ .vmem, ⟨13, _⟩ => ⟨S256x256, .f32⟩
  | .local _ .vmem, ⟨14, _⟩ => ⟨S256, .f32⟩
  | .local _ .vmem, ⟨15, _⟩ => ⟨S6400x256, .f32⟩
  | .local _ .vmem, ⟨16, _⟩ => ⟨S6400x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S256, .f32⟩
  | .local _ .vmem, ⟨23, _⟩ => ⟨S2000x256, .f32⟩
  | .local _ .vmem, ⟨24, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  bcast_S_S320000 : S_.BroadcastsInDim S320000 (![] : Fin 0 → Fin S320000.rank)
  bcast_S320000_S320000x1_0 : S320000.BroadcastsInDim S320000x1 (![0] : Fin 1 → Fin S320000x1.rank)
  inb_S6400x3_S6400x3_0_0 : ∀ a, (![0, 0] : Fin 2 → Nat) a + S6400x3.size a ≤ S6400x3.size a
  h_S6400x3 : 0 < S6400x3.numel
  reduces_S6400x3_S6400 : S6400x3.Reduces [1] S6400
  shapeCasts_S6400_S6400x1 : S6400.ShapeCasts S6400x1
  natLt_1_32 : 1 < 32
  inb_S6400x50_S6400x50_0_0 : ∀ a, (![0, 0] : Fin 2 → Nat) a + S6400x50.size a ≤ S6400x50.size a
  h_S6400x50 : 0 < S6400x50.numel
  bitsLt_bf16_f32 : FTy.bits .bf16 < FTy.bits .f32
  inb_S50x256_S50x256_0_0 : ∀ a, (![0, 0] : Fin 2 → Nat) a + S50x256.size a ≤ S50x256.size a
  h_S50x256 : 0 < S50x256.numel
  inb_S256_S256_0 : ∀ a, (![0] : Fin 1 → Nat) a + S256.size a ≤ S256.size a
  h_S256 : 0 < S256.numel
  shapeCasts_S256_S1x256 : S256.ShapeCasts S1x256
  broadcasts_S1x256_S6400x256 : S1x256.Broadcasts S6400x256
  broadcasts_S6400x1_S6400x256 : S6400x1.Broadcasts S6400x256
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  bcast_S_S10000x256 : S_.BroadcastsInDim S10000x256 (![] : Fin 0 → Fin S10000x256.rank)
  shapeCasts_S2000x256_S2000x256 : S2000x256.ShapeCasts S2000x256
  broadcasts_S1x256_S2000x256 : S1x256.Broadcasts S2000x256
  dot_S2000x256_S256x256_S2000x256_1_0_0_1_n_n_wf : DotDims.WF S2000x256 S256x256 S2000x256 [1] [0] [0] [1] [] []
  gather_S10000x256_S320000x1_S320000x256_1_0_n_n_0_1_1256_wf : GatherDims.WF S10000x256 S320000x1 S320000x256 [1] [0] [] [0] [] 1 ![1, 256]
  dot_S6400x50_S50x256_S6400x256_1_0_0_1_n_n_wf : DotDims.WF S6400x50 S50x256 S6400x256 [1] [0] [0] [1] [] []
  dot_S6400x256_S256x256_S6400x256_1_0_0_1_n_n_wf : DotDims.WF S6400x256 S256x256 S6400x256 [1] [0] [0] [1] [] []
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .f32 = 32 ∨ (Rect.block (s := S10000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x50.size a ≤ S320000x50.size a
  hwx1_0 : ∀ i : grid1.Coords, EltTy.bits .f32 = 32 ∨ (Rect.block (s := S320000x50) S6400x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x3.size a ≤ S320000x3.size a
  hwx1_1 : ∀ i : grid1.Coords, EltTy.bits .f32 = 32 ∨ (Rect.block (s := S320000x3) S6400x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x256.size a ≤ S320000x256.size a
  hwx1_2 : ∀ i : grid1.Coords, EltTy.bits .f32 = 32 ∨ (Rect.block (s := S320000x256) S6400x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x256.size a ≤ S50x256.size a
  hwx1_3 : ∀ i : grid1.Coords, EltTy.bits .f32 = 32 ∨ (Rect.block (s := S50x256) S50x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x256.size a ≤ S320000x256.size a
  hwx1_7 : ∀ i : grid1.Coords, EltTy.bits .f32 = 32 ∨ (Rect.block (s := S320000x256) S6400x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S10000x256.size a
  hwx2_1 : ∀ i : grid2.Coords, EltTy.bits .f32 = 32 ∨ (Rect.block (s := S10000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S10000x256.size a
  hwx2_4 : ∀ i : grid2.Coords, EltTy.bits .f32 = 32 ∨ (Rect.block (s := S10000x256) S2000x256.size (cc2_transform_4 i) (hinb2_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S6400x50_S50x256_S6400x256_1_0_0_1_n_n : DotDims S6400x50 S50x256 S6400x256 where
  lhsContracting := [1]
  rhsContracting := [0]
  lhsNonContracting := [0]
  rhsNonContracting := [1]
  lhsBatch := []
  rhsBatch := []
  wf := dot_S6400x50_S50x256_S6400x256_1_0_0_1_n_n_wf
def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S6400x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S6400x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S6400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S50x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S6400x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v15) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000x3 : Shape := ⟨2, ![320000, 3]⟩
abbrev S320000x50 : Shape := ⟨2, ![320000, 50]⟩
abbrev S50x256 : Shape := ⟨2, ![50, 256]⟩
abbrev S256 : Shape := ⟨1, ![256]⟩
abbrev S256x256 : Shape := ⟨2, ![256, 256]⟩
abbrev S_ : Shape := ⟨0, ![]⟩
abbrev S320000 : Shape := ⟨1, ![320000]⟩
abbrev S320000x256 : Shape := ⟨2, ![320000, 256]⟩
abbrev S1x256 : Shape := ⟨2, ![1, 256]⟩
abbrev S320000x1 : Shape := ⟨2, ![320000, 1]⟩
abbrev S1x320000 : Shape := ⟨2, ![1, 320000]⟩

abbrev nBuf : Space → Nat
  | .hbm => 102
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x3, .f32⟩
  | .hbm, ⟨3, _⟩ => ⟨S320000x50, .f32⟩
  | .hbm, ⟨4, _⟩ => ⟨S50x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S320000x3, .f32⟩
  | .hbm, ⟨12, _⟩ => ⟨S_, .f32⟩
  | .hbm, ⟨13, _⟩ => ⟨S320000, .f32⟩
  | .hbm, ⟨14, _⟩ => ⟨S320000, .f32⟩
  | .hbm, ⟨15, _⟩ => ⟨S_, .f32⟩
  | .hbm, ⟨16, _⟩ => ⟨S320000, .f32⟩
  | .hbm, ⟨17, _⟩ => ⟨S320000, .f32⟩
  | .hbm, ⟨18, _⟩ => ⟨S_, .f32⟩
  | .hbm, ⟨19, _⟩ => ⟨S320000, .f32⟩
  | .hbm, ⟨20, _⟩ => ⟨S320000, .f32⟩
  | .hbm, ⟨21, _⟩ => ⟨S320000, .f32⟩
  | .hbm, ⟨22, _⟩ => ⟨S_, .f32⟩
  | .hbm, ⟨23, _⟩ => ⟨S320000, .f32⟩
  | .hbm, ⟨24, _⟩ => ⟨S320000, .f32⟩
  | .hbm, ⟨25, _⟩ => ⟨S_, .f32⟩
  | .hbm, ⟨26, _⟩ => ⟨S320000, .f32⟩
  | .hbm, ⟨27, _⟩ => ⟨S320000, .f32⟩
  | .hbm, ⟨28, _⟩ => ⟨S_, .f32⟩
  | .hbm, ⟨29, _⟩ => ⟨S320000, .f32⟩
  | .hbm, ⟨30, _⟩ => ⟨S320000, .i1⟩
  | .hbm, ⟨31, _⟩ => ⟨S320000, .f32⟩
  | .hbm, ⟨32, _⟩ => ⟨S320000, .f32⟩
  | .hbm, ⟨33, _⟩ => ⟨S320000x256, .f32⟩
  | .hbm, ⟨34, _⟩ => ⟨S1x256, .f32⟩
  | .hbm, ⟨35, _⟩ => ⟨S320000x256, .f32⟩
  | .hbm, ⟨36, _⟩ => ⟨S320000x256, .f32⟩
  | .hbm, ⟨37, _⟩ => ⟨S_, .f32⟩
  | .hbm, ⟨38, _⟩ => ⟨S320000x256, .f32⟩
  | .hbm, ⟨39, _⟩ => ⟨S320000x256, .f32⟩
  | .hbm, ⟨40, _⟩ => ⟨S320000x256, .f32⟩
  | .hbm, ⟨41, _⟩ => ⟨S320000x256, .f32⟩
  | .hbm, ⟨42, _⟩ => ⟨S320000x256, .i1⟩
  | .hbm, ⟨43, _⟩ => ⟨S320000x256, .f32⟩
  | .hbm, ⟨44, _⟩ => ⟨S320000x256, .f32⟩
  | .hbm, ⟨45, _⟩ => ⟨S320000x256, .f32⟩
  | .hbm, ⟨46, _⟩ => ⟨S320000x256, .f32⟩
  | .hbm, ⟨47, _⟩ => ⟨S320000x256, .f32⟩
  | .hbm, ⟨48, _⟩ => ⟨S320000x256, .f32⟩
  | .hbm, ⟨49, _⟩ => ⟨S320000x256, .f32⟩
  | .hbm, ⟨50, _⟩ => ⟨S320000x256, .f32⟩
  | .hbm, ⟨51, _⟩ => ⟨S_, .f32⟩
  | .hbm, ⟨52, _⟩ => ⟨S320000x256, .f32⟩
  | .hbm, ⟨53, _⟩ => ⟨S320000x256, .f32⟩
  | .hbm, ⟨54, _⟩ => ⟨S320000x256, .f32⟩
  | .hbm, ⟨55, _⟩ => ⟨S1x256, .f32⟩
  | .hbm, ⟨56, _⟩ => ⟨S320000x256, .f32⟩
  | .hbm, ⟨57, _⟩ => ⟨S320000x256, .f32⟩
  | .hbm, ⟨58, _⟩ => ⟨S320000x1, .f32⟩
  | .hbm, ⟨59, _⟩ => ⟨S320000x256, .f32⟩
  | .hbm, ⟨60, _⟩ => ⟨S320000x256, .f32⟩
  | .hbm, ⟨61, _⟩ => ⟨S1x320000, .i32⟩
  | .hbm, ⟨62, _⟩ => ⟨S320000, .i32⟩
  | .hbm, ⟨63, _⟩ => ⟨S1x320000, .i32⟩
  | .hbm, ⟨64, _⟩ => ⟨S320000, .i32⟩
  | .hbm, ⟨65, _⟩ => ⟨S_, .i32⟩
  | .hbm, ⟨66, _⟩ => ⟨S320000, .i32⟩
  | .hbm, ⟨67, _⟩ => ⟨S320000, .i1⟩
  | .hbm, ⟨68, _⟩ => ⟨S_, .i32⟩
  | .hbm, ⟨69, _⟩ => ⟨S320000, .i32⟩
  | .hbm, ⟨70, _⟩ => ⟨S320000, .i32⟩
  | .hbm, ⟨71, _⟩ => ⟨S320000, .i32⟩
  | .hbm, ⟨72, _⟩ => ⟨S320000x1, .i32⟩
  | .hbm, ⟨73, _⟩ => ⟨S320000x256, .f32⟩
  | .hbm, ⟨74, _⟩ => ⟨S320000x256, .f32⟩
  | .hbm, ⟨75, _⟩ => ⟨S320000x256, .f32⟩
  | .hbm, ⟨76, _⟩ => ⟨S_, .f32⟩
  | .hbm, ⟨77, _⟩ => ⟨S10000x256, .f32⟩
  | .hbm, ⟨78, _⟩ => ⟨S320000x1, .i32⟩
  | .hbm, ⟨79, _⟩ => ⟨S10000x256, .f32⟩
  | .hbm, ⟨80, _⟩ => ⟨S10000x256, .f32⟩
  | .hbm, ⟨81, _⟩ => ⟨S1x256, .f32⟩
  | .hbm, ⟨82, _⟩ => ⟨S10000x256, .f32⟩
  | .hbm, ⟨83, _⟩ => ⟨S10000x256, .f32⟩
  | .hbm, ⟨84, _⟩ => ⟨S_, .f32⟩
  | .hbm, ⟨85, _⟩ => ⟨S10000x256, .f32⟩
  | .hbm, ⟨86, _⟩ => ⟨S10000x256, .f32⟩
  | .hbm, ⟨87, _⟩ => ⟨S10000x256, .f32⟩
  | .hbm, ⟨88, _⟩ => ⟨S10000x256, .f32⟩
  | .hbm, ⟨89, _⟩ => ⟨S10000x256, .i1⟩
  | .hbm, ⟨90, _⟩ => ⟨S10000x256, .f32⟩
  | .hbm, ⟨91, _⟩ => ⟨S10000x256, .f32⟩
  | .hbm, ⟨92, _⟩ => ⟨S10000x256, .f32⟩
  | .hbm, ⟨93, _⟩ => ⟨S10000x256, .f32⟩
  | .hbm, ⟨94, _⟩ => ⟨S10000x256, .f32⟩
  | .hbm, ⟨95, _⟩ => ⟨S10000x256, .f32⟩
  | .hbm, ⟨96, _⟩ => ⟨S10000x256, .f32⟩
  | .hbm, ⟨97, _⟩ => ⟨S10000x256, .f32⟩
  | .hbm, ⟨98, _⟩ => ⟨S_, .f32⟩
  | .hbm, ⟨99, _⟩ => ⟨S10000x256, .f32⟩
  | .hbm, ⟨100, _⟩ => ⟨S10000x256, .f32⟩
  | .hbm, ⟨101, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_v18 : Ref sig .tc := ⟨.hbm, 50, rfl⟩
abbrev main_cst_4 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c : Ref sig .tc := ⟨.hbm, 65, rfl⟩
abbrev main_v32 : Ref sig .tc := ⟨.hbm, 66, rfl⟩
abbrev main_v33 : Ref sig .tc := ⟨.hbm, 67, rfl⟩
abbrev main_c_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_6 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_v48 : Ref sig .tc := ⟨.hbm, 97, rfl⟩
abbrev main_cst_7 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩

abbrev nD : Nat := 1
abbrev τ : Topo := Topo.v7x

variable {F : FTy → Type} [FloatOps F]

class Facts₀ : Prop where
  reducesTo_S320000x3_S320000_d1 : S320000x3.ReducesTo [1] S320000
  h_S_ : 0 < S_.numel
  bcast_S_S320000 : S_.BroadcastsInDim S320000 (![] : Fin 0 → Fin S320000.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  dot_S320000x50_S50x256_S320000x256_1_0_0_1_n_n_wf : DotDims.WF S320000x50 S50x256 S320000x256 [1] [0] [0] [1] [] []
  dot_S320000x256_S256x256_S320000x256_1_0_0_1_n_n_wf : DotDims.WF S320000x256 S256x256 S320000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def dot_S320000x50_S50x256_S320000x256_1_0_0_1_n_n : DotDims S320000x50 S50x256 S320000x256 where
  lhsContracting := [1]
  rhsContracting := [0]
  lhsNonContracting := [0]
  rhsNonContracting := [1]
  lhsBatch := []
  rhsBatch := []
  wf := dot_S320000x50_S50x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KernelRun.lean ====
/-
  The idealized kernel's run, with its result named.

  The program is three kernel launches among stretches of host operations. The contents of every buffer at each
  boundary between two stretches are a fold from the launch memory: a host stretch applies its operations, a launch
  replaces its arrays by what its write-backs leave. At the end every buffer holds the last boundary's contents, so
  the result array holds the last boundary's contents at the result's buffer, and each argument holds what it held
  at launch.
-/
import proofs.«117941_j33208687133091_1_alg».proof.Proof.Gen.KernelIdeal.Frame

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result array holds the last
    boundary's contents at its buffer and every argument array is as launched. -/
theorem run_boundary : θ_run defs (onTc (τ := τ) (main (F := F))) ⟨m, fun _ => 0, ρ⟩ (fun r => ∀ c : Dev nD,
      r.2.mem ((c.tc : Thread nD τ).loc main_v16) = W6 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v16 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.KValue

end
-- ==== Proof.KernelHost.lean ====
/-
  The idealized kernel's host stretches: what each launch finds in its arrays.

  Between the launches the program only computes the two id vectors from the edge list, gathers the rows of the
  first launch's output at the source ids, and adds the second launch's output row by row into zeros at the
  destination ids. No host operation and no launch writes an argument array, so each launch finds the arguments as
  launched; the id vectors, the zero array and the gather's start indices are the same terms the reference program
  computes from the edge list.
-/
import proofs.«117941_j33208687133091_1_alg».proof.Proof.Gen.KernelIdeal.Frame
import proofs.«117941_j33208687133091_1_alg».proof.Proof.Gen.ReferenceIdeal.Read

noncomputable section

namespace Cert.KernelIdeal.KValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- At launch a buffer holds the launch memory's contents. -/
theorem W0_at (b : Ref sig .tc) : W0 m ρ c (Proc.devRef .tc b) = m ((c : Thread nD τ).loc b) := rfl

/-! ### The first stretch: the two id vectors -/

theorem W1_keep_main_arg0 : W1 m ρ c (Proc.devRef .tc main_arg0) = W0 m ρ c (Proc.devRef .tc main_arg0) := by
  show StableHlo.after hostOps0 (W0 m ρ c) (Proc.devRef .tc main_arg0) = _
  after_results
theorem W1_keep_main_arg2 : W1 m ρ c (Proc.devRef .tc main_arg2) = W0 m ρ c (Proc.devRef .tc main_arg2) := by
  show StableHlo.after hostOps0 (W0 m ρ c) (Proc.devRef .tc main_arg2) = _
  after_results
theorem W1_keep_main_arg3 : W1 m ρ c (Proc.devRef .tc main_arg3) = W0 m ρ c (Proc.devRef .tc main_arg3) := by
  show StableHlo.after hostOps0 (W0 m ρ c) (Proc.devRef .tc main_arg3) = _
  after_results
theorem W1_keep_main_arg4 : W1 m ρ c (Proc.devRef .tc main_arg4) = W0 m ρ c (Proc.devRef .tc main_arg4) := by
  show StableHlo.after hostOps0 (W0 m ρ c) (Proc.devRef .tc main_arg4) = _
  after_results
theorem W1_keep_main_arg5 : W1 m ρ c (Proc.devRef .tc main_arg5) = W0 m ρ c (Proc.devRef .tc main_arg5) := by
  show StableHlo.after hostOps0 (W0 m ρ c) (Proc.devRef .tc main_arg5) = _
  after_results
theorem W1_keep_main_arg6 : W1 m ρ c (Proc.devRef .tc main_arg6) = W0 m ρ c (Proc.devRef .tc main_arg6) := by
  show StableHlo.after hostOps0 (W0 m ρ c) (Proc.devRef .tc main_arg6) = _
  after_results
theorem W1_keep_main_arg7 : W1 m ρ c (Proc.devRef .tc main_arg7) = W0 m ρ c (Proc.devRef .tc main_arg7) := by
  show StableHlo.after hostOps0 (W0 m ρ c) (Proc.devRef .tc main_arg7) = _
  after_results
theorem W1_keep_main_arg8 : W1 m ρ c (Proc.devRef .tc main_arg8) = W0 m ρ c (Proc.devRef .tc main_arg8) := by
  show StableHlo.after hostOps0 (W0 m ρ c) (Proc.devRef .tc main_arg8) = _
  after_results
theorem W1_keep_main_arg9 : W1 m ρ c (Proc.devRef .tc main_arg9) = W0 m ρ c (Proc.devRef .tc main_arg9) := by
  show StableHlo.after hostOps0 (W0 m ρ c) (Proc.devRef .tc main_arg9) = _
  after_results
theorem W1_keep_main_arg10 : W1 m ρ c (Proc.devRef .tc main_arg10) = W0 m ρ c (Proc.devRef .tc main_arg10) := by
  show StableHlo.after hostOps0 (W0 m ρ c) (Proc.devRef .tc main_arg10) = _
  after_results

/-- The destination ids: row 0 of the edge list. -/
theorem W1_v1 : W1 m ρ c (Proc.devRef .tc main_v1) = Cert.ReferenceIdeal.Read.val_main_v29 (F := Ideal) (m ((c : Thread nD τ).loc main_arg1)) := by
  show StableHlo.after hostOps0 (W0 m ρ c) (Proc.devRef .tc main_v1) = _
  after_results
  rfl

/-- The source ids: row 1 of the edge list. -/
theorem W1_v3 : W1 m ρ c (Proc.devRef .tc main_v3) = Cert.ReferenceIdeal.Read.val_main_v31 (F := Ideal) (m ((c : Thread nD τ).loc main_arg1)) := by
  show StableHlo.after hostOps0 (W0 m ρ c) (Proc.devRef .tc main_v3) = _
  after_results
  rfl

/-! ### Across the first launch -/

theorem W2_ne_main_arg2 : W2 m ρ c (Proc.devRef .tc main_arg2) = W1 m ρ c (Proc.devRef .tc main_arg2) := W2_of_ne m ρ c main_arg2 (by decide)
theorem W2_ne_main_arg3 : W2 m ρ c (Proc.devRef .tc main_arg3) = W1 m ρ c (Proc.devRef .tc main_arg3) := W2_of_ne m ρ c main_arg3 (by decide)
theorem W2_ne_main_arg4 : W2 m ρ c (Proc.devRef .tc main_arg4) = W1 m ρ c (Proc.devRef .tc main_arg4) := W2_of_ne m ρ c main_arg4 (by decide)
theorem W2_ne_main_arg5 : W2 m ρ c (Proc.devRef .tc main_arg5) = W1 m ρ c (Proc.devRef .tc main_arg5) := W2_of_ne m ρ c main_arg5 (by decide)
theorem W2_ne_main_arg6 : W2 m ρ c (Proc.devRef .tc main_arg6) = W1 m ρ c (Proc.devRef .tc main_arg6) := W2_of_ne m ρ c main_arg6 (by decide)
theorem W2_ne_main_arg7 : W2 m ρ c (Proc.devRef .tc main_arg7) = W1 m ρ c (Proc.devRef .tc main_arg7) := W2_of_ne m ρ c main_arg7 (by decide)
theorem W2_ne_main_arg9 : W2 m ρ c (Proc.devRef .tc main_arg9) = W1 m ρ c (Proc.devRef .tc main_arg9) := W2_of_ne m ρ c main_arg9 (by decide)
theorem W2_ne_main_arg10 : W2 m ρ c (Proc.devRef .tc main_arg10) = W1 m ρ c (Proc.devRef .tc main_arg10) := W2_of_ne m ρ c main_arg10 (by decide)
theorem W2_ne_main_v1 : W2 m ρ c (Proc.devRef .tc main_v1) = W1 m ρ c (Proc.devRef .tc main_v1) := W2_of_ne m ρ c main_v1 (by decide)
theorem W2_ne_main_v3 : W2 m ρ c (Proc.devRef .tc main_v3) = W1 m ρ c (Proc.devRef .tc main_v3) := W2_of_ne m ρ c main_v3 (by decide)

/-- The features are an input of the first launch: it leaves them as it found them. -/
theorem W2_in_main_arg0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

/-! ### The second stretch: the gather -/

theorem W3_keep_main_arg0 : W3 m ρ c (Proc.devRef .tc main_arg0) = W2 m ρ c (Proc.devRef .tc main_arg0) := by
  show StableHlo.after hostOps1 (W2 m ρ c) (Proc.devRef .tc main_arg0) = _
  after_results
theorem W3_keep_main_arg2 : W3 m ρ c (Proc.devRef .tc main_arg2) = W2 m ρ c (Proc.devRef .tc main_arg2) := by
  show StableHlo.after hostOps1 (W2 m ρ c) (Proc.devRef .tc main_arg2) = _
  after_results
theorem W3_keep_main_arg3 : W3 m ρ c (Proc.devRef .tc main_arg3) = W2 m ρ c (Proc.devRef .tc main_arg3) := by
  show StableHlo.after hostOps1 (W2 m ρ c) (Proc.devRef .tc main_arg3) = _
  after_results
theorem W3_keep_main_arg4 : W3 m ρ c (Proc.devRef .tc main_arg4) = W2 m ρ c (Proc.devRef .tc main_arg4) := by
  show StableHlo.after hostOps1 (W2 m ρ c) (Proc.devRef .tc main_arg4) = _
  after_results
theorem W3_keep_main_arg5 : W3 m ρ c (Proc.devRef .tc main_arg5) = W2 m ρ c (Proc.devRef .tc main_arg5) := by
  show StableHlo.after hostOps1 (W2 m ρ c) (Proc.devRef .tc main_arg5) = _
  after_results
theorem W3_keep_main_arg6 : W3 m ρ c (Proc.devRef .tc main_arg6) = W2 m ρ c (Proc.devRef .tc main_arg6) := by
  show StableHlo.after hostOps1 (W2 m ρ c) (Proc.devRef .tc main_arg6) = _
  after_results
theorem W3_keep_main_arg7 : W3 m ρ c (Proc.devRef .tc main_arg7) = W2 m ρ c (Proc.devRef .tc main_arg7) := by
  show StableHlo.after hostOps1 (W2 m ρ c) (Proc.devRef .tc main_arg7) = _
  after_results
theorem W3_keep_main_arg9 : W3 m ρ c (Proc.devRef .tc main_arg9) = W2 m ρ c (Proc.devRef .tc main_arg9) := by
  show StableHlo.after hostOps1 (W2 m ρ c) (Proc.devRef .tc main_arg9) = _
  after_results
theorem W3_keep_main_arg10 : W3 m ρ c (Proc.devRef .tc main_arg10) = W2 m ρ c (Proc.devRef .tc main_arg10) := by
  show StableHlo.after hostOps1 (W2 m ρ c) (Proc.devRef .tc main_arg10) = _
  after_results
theorem W3_keep_main_v1 : W3 m ρ c (Proc.devRef .tc main_v1) = W2 m ρ c (Proc.devRef .tc main_v1) := by
  show StableHlo.after hostOps1 (W2 m ρ c) (Proc.devRef .tc main_v1) = _
  after_results

/-- The gathered rows: the first launch's output at the source ids, wrapped when negative. -/
theorem W3_v11 : W3 m ρ c (Proc.devRef .tc main_v11)
    = Host.gather gather_S10000x256_S320000x1_S320000x256_1_0_n_n_0_1_1256 (W2 m ρ c (Proc.devRef .tc main_v4))
        (Cert.ReferenceIdeal.Read.val_main_v37 (F := Ideal) (m ((c : Thread nD τ).loc main_arg1))) := by
  show StableHlo.after hostOps1 (W2 m ρ c) (Proc.devRef .tc main_v11) = _
  after_results
  rw [W2_ne_main_v3, W1_v3]
  rfl

/-! ### Across the second launch -/

theorem W4_ne_main_arg0 : W4 m ρ c (Proc.devRef .tc main_arg0) = W3 m ρ c (Proc.devRef .tc main_arg0) := W4_of_ne m ρ c main_arg0 (by decide)
theorem W4_ne_main_arg9 : W4 m ρ c (Proc.devRef .tc main_arg9) = W3 m ρ c (Proc.devRef .tc main_arg9) := W4_of_ne m ρ c main_arg9 (by decide)
theorem W4_ne_main_arg10 : W4 m ρ c (Proc.devRef .tc main_arg10) = W3 m ρ c (Proc.devRef .tc main_arg10) := W4_of_ne m ρ c main_arg10 (by decide)
theorem W4_ne_main_v1 : W4 m ρ c (Proc.devRef .tc main_v1) = W3 m ρ c (Proc.devRef .tc main_v1) := W4_of_ne m ρ c main_v1 (by decide)

/-! ### The third stretch: the scatter-add -/

theorem W5_keep_main_arg0 : W5 m ρ c (Proc.devRef .tc main_arg0) = W4 m ρ c (Proc.devRef .tc main_arg0) := by
  show StableHlo.after hostOps2 (W4 m ρ c) (Proc.devRef .tc main_arg0) = _
  after_results
theorem W5_keep_main_arg9 : W5 m ρ c (Proc.devRef .tc main_arg9) = W4 m ρ c (Proc.devRef .tc main_arg9) := by
  show StableHlo.after hostOps2 (W4 m ρ c) (Proc.devRef .tc main_arg9) = _
  after_results
theorem W5_keep_main_arg10 : W5 m ρ c (Proc.devRef .tc main_arg10) = W4 m ρ c (Proc.devRef .tc main_arg10) := by
  show StableHlo.after hostOps2 (W4 m ρ c) (Proc.devRef .tc main_arg10) = _
  after_results

/-- The destination ids as the third stretch finds them. -/
theorem W4_v1 : W4 m ρ c (Proc.devRef .tc main_v1) = Cert.ReferenceIdeal.Read.val_main_v29 (F := Ideal) (m ((c : Thread nD τ).loc main_arg1)) :=
  (W4_ne_main_v1 m ρ c).trans ((W3_keep_main_v1 m ρ c).trans ((W2_ne_main_v1 m ρ c).trans (W1_v1 m ρ c)))

/-- The aggregate: the second launch's output added row by row into zeros at the destination ids. -/
theorem W5_v15 : @Eq (FVec Ideal S10000x256 .f32) (W5 m ρ c (Proc.devRef .tc main_v15))
    (Host.scatterAdd scatter_S10000x256_S320000x1_S320000x256_1_0_0_1 (Cert.ReferenceIdeal.Read.val_main_v41 (F := Ideal))
        (Cert.ReferenceIdeal.Read.val_main_v42 (F := Ideal) (m ((c : Thread nD τ).loc main_arg1))) (W4 m ρ c (Proc.devRef .tc main_v12))) := by
  show StableHlo.after hostOps2 (W4 m ρ c) (Proc.devRef .tc main_v15) = _
  after_results
  rw [W4_v1]
  rfl

/-! ### What each launch finds in its argument arrays -/

theorem V1_arg0 : V1 m ρ c main_arg0 = m ((c : Thread nD τ).loc main_arg0) := (W1_keep_main_arg0 m ρ c).trans (W0_at m ρ c _)
theorem V1_arg8 : V1 m ρ c main_arg8 = m ((c : Thread nD τ).loc main_arg8) := (W1_keep_main_arg8 m ρ c).trans (W0_at m ρ c _)

theorem V3_arg2 : V3 m ρ c main_arg2 = m ((c : Thread nD τ).loc main_arg2) :=
  (W3_keep_main_arg2 m ρ c).trans ((W2_ne_main_arg2 m ρ c).trans ((W1_keep_main_arg2 m ρ c).trans (W0_at m ρ c _)))
theorem V3_arg3 : V3 m ρ c main_arg3 = m ((c : Thread nD τ).loc main_arg3) :=
  (W3_keep_main_arg3 m ρ c).trans ((W2_ne_main_arg3 m ρ c).trans ((W1_keep_main_arg3 m ρ c).trans (W0_at m ρ c _)))
theorem V3_arg4 : V3 m ρ c main_arg4 = m ((c : Thread nD τ).loc main_arg4) :=
  (W3_keep_main_arg4 m ρ c).trans ((W2_ne_main_arg4 m ρ c).trans ((W1_keep_main_arg4 m ρ c).trans (W0_at m ρ c _)))
theorem V3_arg5 : V3 m ρ c main_arg5 = m ((c : Thread nD τ).loc main_arg5) :=
  (W3_keep_main_arg5 m ρ c).trans ((W2_ne_main_arg5 m ρ c).trans ((W1_keep_main_arg5 m ρ c).trans (W0_at m ρ c _)))
theorem V3_arg6 : V3 m ρ c main_arg6 = m ((c : Thread nD τ).loc main_arg6) :=
  (W3_keep_main_arg6 m ρ c).trans ((W2_ne_main_arg6 m ρ c).trans ((W1_keep_main_arg6 m ρ c).trans (W0_at m ρ c _)))
theorem V3_arg7 : V3 m ρ c main_arg7 = m ((c : Thread nD τ).loc main_arg7) :=
  (W3_keep_main_arg7 m ρ c).trans ((W2_ne_main_arg7 m ρ c).trans ((W1_keep_main_arg7 m ρ c).trans (W0_at m ρ c _)))

theorem V5_arg0 : V5 m ρ c main_arg0 = m ((c : Thread nD τ).loc main_arg0) :=
  (W5_keep_main_arg0 m ρ c).trans ((W4_ne_main_arg0 m ρ c).trans ((W3_keep_main_arg0 m ρ c).trans
    ((W2_in_main_arg0 m ρ c).trans ((W1_keep_main_arg0 m ρ c).trans (W0_at m ρ c _)))))
theorem V5_arg9 : V5 m ρ c main_arg9 = m ((c : Thread nD τ).loc main_arg9) :=
  (W5_keep_main_arg9 m ρ c).trans ((W4_ne_main_arg9 m ρ c).trans ((W3_keep_main_arg9 m ρ c).trans
    ((W2_ne_main_arg9 m ρ c).trans ((W1_keep_main_arg9 m ρ c).trans (W0_at m ρ c _)))))
theorem V5_arg10 : V5 m ρ c main_arg10 = m ((c : Thread nD τ).loc main_arg10) :=
  (W5_keep_main_arg10 m ρ c).trans ((W4_ne_main_arg10 m ρ c).trans ((W3_keep_main_arg10 m ρ c).trans
    ((W2_ne_main_arg10 m ρ c).trans ((W1_keep_main_arg10 m ρ c).trans (W0_at m ρ c _)))))

end Cert.KernelIdeal.KValue

end
-- ==== Proof.LibShiftedSoftplus.lean ====
/-
  Scalar facts on the extended reals that join a kernel's and a host program's spellings of three common pieces: the
  shifted softplus, a comparison mask converted to a float, and an angle scaled by half the word nearest to pi.

  * The shifted softplus log(1 + exp z) - log 2 is spelt max(z, 0) + log1p(exp(-|z - 0|)) behind a guard that tests
    z - 0 against itself. One program writes the guard "ordered and different" and negates by subtracting from zero;
    the other writes "unordered or different" and negates. On the extended reals the guards are one test and
    0 - a = -a.
  * A one-bit mask widened to 32 bits and read signed is the bit read unsigned.
  * Dividing a product by two is multiplying by half the factor: (d * P) / 2 = d * (P / 2), where P is the
    single-precision word nearest to pi and P / 2 is again a single-precision word (one less in the exponent).
-/
import Idealize.ShloMosaic.PureOps.Ideal
import Idealize.ShloMosaic.PureOps.Ideal.Laws
import Idealize.ShloMosaic.Lib.ValueIdx

noncomputable section

namespace Cert.CfConv

open Idealize.ShloMosaic Idealize.ShloMosaic.ValueIdx

/-- The single-precision zero word denotes 0. -/
theorem zero_word : Ideal.ofBits .f32 0x00000000#32 = 0 := Ideal.ofBits_zero_f32

/-- The shifted softplus as the host program spells it. -/
def ssp (z : EReal) : EReal :=
  Scalar.select (Ideal.cmp .une (z - Ideal.ofBits .f32 0x00000000#32) (z - Ideal.ofBits .f32 0x00000000#32))
      (z + Ideal.ofBits .f32 0x00000000#32)
      (max z (Ideal.ofBits .f32 0x00000000#32)
        + Ideal.log1p (Ideal.exp (-(max (z - Ideal.ofBits .f32 0x00000000#32) (-(z - Ideal.ofBits .f32 0x00000000#32))))))
    - Ideal.ofBits .f32 0x3F317218#32

/-- The shifted softplus as the kernel spells it. -/
def sspK (z : EReal) : EReal :=
  Scalar.select (Ideal.cmp .one (z - Ideal.ofBits .f32 0x00000000#32) (z - Ideal.ofBits .f32 0x00000000#32))
      (z + Ideal.ofBits .f32 0x00000000#32)
      (max z (Ideal.ofBits .f32 0x00000000#32)
        + Ideal.log1p (Ideal.exp (Ideal.ofBits .f32 0x00000000#32
            - (max (z - Ideal.ofBits .f32 0x00000000#32) (-(z - Ideal.ofBits .f32 0x00000000#32))))))
    - Ideal.ofBits .f32 0x3F317218#32

/-- The kernel's spelling of the shifted softplus is the host's. -/
theorem sspK_eq (z : EReal) : sspK z = ssp z := by
  unfold sspK ssp
  rw [show Ideal.cmp .one (z - Ideal.ofBits .f32 0x00000000#32) (z - Ideal.ofBits .f32 0x00000000#32)
      = Ideal.cmp .une (z - Ideal.ofBits .f32 0x00000000#32) (z - Ideal.ofBits .f32 0x00000000#32) from rfl]
  rw [show ∀ a : EReal, Ideal.ofBits .f32 0x00000000#32 - a = -a from fun a => by rw [zero_word, zero_sub]]

/-- A bit widened to 32 bits and read signed is the bit read unsigned. -/
theorem mask_signed_unsigned (b : BitVec 1) : (((b.setWidth 32).toInt : ℝ) : EReal) = ((b.toNat : ℝ) : EReal) := by
  have h : ∀ b : BitVec 1, (b.setWidth 32).toInt = (b.toNat : Int) := by decide
  rw [h b]; norm_cast

/-- The word nearest to pi, halved by the host's division, is the kernel's word: (d * P) / 2 = d * (P / 2). -/
theorem half_pi (d : EReal) :
    Ideal.div (d * Ideal.ofBits .f32 0x40490FDB#32) (Ideal.ofBits .f32 0x40000000#32)
      = d * Ideal.ofBits .f32 0x3FC90FDB#32 := by
  have h2 : Ideal.ofBits .f32 0x40000000#32 = ((2 : ℝ) : EReal) := by
    simp [Ideal.ofBits, Ideal.ieee]
    first | (rw [← EReal.coe_mul]; congr 1; norm_num) | (norm_cast; norm_num)
  have hP : Ideal.ofBits .f32 0x40490FDB#32 = (((13176795 : ℝ) / 4194304 : ℝ) : EReal) := by
    simp [Ideal.ofBits, Ideal.ieee]
    first | (rw [← EReal.coe_mul]; congr 1; norm_num) | (norm_cast; norm_num)
  have hK : Ideal.ofBits .f32 0x3FC90FDB#32 = (((13176795 : ℝ) / 8388608 : ℝ) : EReal) := by
    simp [Ideal.ofBits, Ideal.ieee]
    first | (rw [← EReal.coe_mul]; congr 1; norm_num) | (norm_cast; norm_num)
  rw [h2, hP, hK, Ideal.div_coe (by norm_num : (2 : ℝ) ≠ 0), mul_assoc, ← EReal.coe_mul]
  congr 2
  norm_num

end Cert.CfConv

end
-- ==== Proof.Spec.lean ====
/-
  The continuous-filter convolution layer, entry by entry, on the extended reals.

  For an edge e with offset vector ew[e] (three coordinates) and attributes ea[e] (fifty features):
    d(e)        = sqrt (sum_q ew[e,q]^2)                                  the edge length
    envelope e  = 1/2 * (cos (d(e) * P/2) + 1) * [d(e) <= 2]              the cosine cutoff
    hidden e k  = ssp (sum_j ea[e,j] * W1[j,k] + b1[k])                   the filter network's hidden layer
    message e c = ((sum_k hidden e k * W2[k,c] + b2[c]) * envelope e) * g[e,c]
  where g[e,·] is the source node's features after the first linear map, and for a node n
    linear n c  = sum_k x[n,k] * L1[k,c]
    final n c   = x[n,c] + ssp (sum_k agg[n,k] * L2[k,c] + b[c])
  with agg the sum of the messages of the edges that end at n. Each is stated for any number of rows, so that the
  same definition reads a block of rows and the whole array; each depends on its row-indexed operands through one
  row only, which is what lets a block of the kernel's output be the whole array's function restricted to the block.
-/
import proofs.«117941_j33208687133091_1_alg».proof.Proof.LibShiftedSoftplus

noncomputable section

namespace Cert.CfConv

open Idealize.ShloMosaic Idealize.ShloMosaic.ValueIdx

variable {R : ℕ}

/-- The cosine cutoff of row `e`'s offset vector. -/
def envelope (ew : FVec Ideal ⟨2, ![R, 3]⟩ .f32) (e : Fin R) : EReal :=
  (Ideal.ofBits .f32 0x3F000000#32
      * (Ideal.cos (Ideal.sqrt (∑ q : Fin 3, ew (ix2 e q) * ew (ix2 e q)) * Ideal.ofBits .f32 0x3FC90FDB#32)
          + Ideal.ofBits .f32 0x3F800000#32))
    * (((Ideal.cmp .ole (Ideal.sqrt (∑ q : Fin 3, ew (ix2 e q) * ew (ix2 e q))) (Ideal.ofBits .f32 0x40000000#32)).toNat : ℝ) : EReal)

/-- The filter network's hidden layer at row `e`, unit `k`. -/
def filterHidden (ea : FVec Ideal ⟨2, ![R, 50]⟩ .f32) (w1 : FVec Ideal ⟨2, ![50, 256]⟩ .f32) (b1 : FVec Ideal ⟨1, ![256]⟩ .f32)
    (e : Fin R) (k : Fin 256) : EReal :=
  ssp ((∑ j : Fin 50, ea (ix2 e j) * w1 (ix2 j k)) + b1 (ix1 k))

/-- The message of row `e` at feature `c`. -/
def message (ea : FVec Ideal ⟨2, ![R, 50]⟩ .f32) (ew : FVec Ideal ⟨2, ![R, 3]⟩ .f32) (g : FVec Ideal ⟨2, ![R, 256]⟩ .f32)
    (w1 : FVec Ideal ⟨2, ![50, 256]⟩ .f32) (b1 : FVec Ideal ⟨1, ![256]⟩ .f32)
    (w2 : FVec Ideal ⟨2, ![256, 256]⟩ .f32) (b2 : FVec Ideal ⟨1, ![256]⟩ .f32) (e : Fin R) (c : Fin 256) : EReal :=
  (((∑ k : Fin 256, filterHidden ea w1 b1 e k * w2 (ix2 k c)) + b2 (ix1 c)) * envelope ew e) * g (ix2 e c)

/-- The first linear map at row `n`, feature `c`. -/
def linear (x : FVec Ideal ⟨2, ![R, 256]⟩ .f32) (l1 : FVec Ideal ⟨2, ![256, 256]⟩ .f32) (n : Fin R) (c : Fin 256) : EReal :=
  ∑ k : Fin 256, x (ix2 n k) * l1 (ix2 k c)

/-- The layer's output at row `n`, feature `c`. -/
def final (agg x : FVec Ideal ⟨2, ![R, 256]⟩ .f32) (l2 : FVec Ideal ⟨2, ![256, 256]⟩ .f32) (b : FVec Ideal ⟨1, ![256]⟩ .f32)
    (n : Fin R) (c : Fin 256) : EReal :=
  x (ix2 n c) + ssp ((∑ k : Fin 256, agg (ix2 n k) * l2 (ix2 k c)) + b (ix1 c))

variable {R' : ℕ}

/-- The message depends on one row of the attributes, the offsets and the gathered features. -/
theorem message_congr (ea : FVec Ideal ⟨2, ![R, 50]⟩ .f32) (ew : FVec Ideal ⟨2, ![R, 3]⟩ .f32) (g : FVec Ideal ⟨2, ![R, 256]⟩ .f32)
    (ea' : FVec Ideal ⟨2, ![R', 50]⟩ .f32) (ew' : FVec Ideal ⟨2, ![R', 3]⟩ .f32) (g' : FVec Ideal ⟨2, ![R', 256]⟩ .f32)
    (w1 : FVec Ideal ⟨2, ![50, 256]⟩ .f32) (b1 : FVec Ideal ⟨1, ![256]⟩ .f32)
    (w2 : FVec Ideal ⟨2, ![256, 256]⟩ .f32) (b2 : FVec Ideal ⟨1, ![256]⟩ .f32) (e : Fin R) (e' : Fin R') (c : Fin 256)
    (ha : ∀ j : Fin 50, ea (ix2 e j) = ea' (ix2 e' j)) (hw : ∀ q : Fin 3, ew (ix2 e q) = ew' (ix2 e' q))
    (hg : g (ix2 e c) = g' (ix2 e' c)) :
    message ea ew g w1 b1 w2 b2 e c = message ea' ew' g' w1 b1 w2 b2 e' c := by
  unfold message filterHidden envelope
  simp only [ha, hw, hg]

/-- The first linear map depends on one row of the features. -/
theorem linear_congr (x : FVec Ideal ⟨2, ![R, 256]⟩ .f32) (x' : FVec Ideal ⟨2, ![R', 256]⟩ .f32)
    (l1 : FVec Ideal ⟨2, ![256, 256]⟩ .f32) (n : Fin R) (n' : Fin R') (c : Fin 256)
    (hx : ∀ k : Fin 256, x (ix2 n k) = x' (ix2 n' k)) : linear x l1 n c = linear x' l1 n' c := by
  unfold linear
  simp only [hx]

/-- The output depends on one row of the aggregate and of the features. -/
theorem final_congr (agg x : FVec Ideal ⟨2, ![R, 256]⟩ .f32) (agg' x' : FVec Ideal ⟨2, ![R', 256]⟩ .f32)
    (l2 : FVec Ideal ⟨2, ![256, 256]⟩ .f32) (b : FVec Ideal ⟨1, ![256]⟩ .f32) (n : Fin R) (n' : Fin R') (c : Fin 256)
    (ha : ∀ k : Fin 256, agg (ix2 n k) = agg' (ix2 n' k)) (hx : x (ix2 n c) = x' (ix2 n' c)) :
    final agg x l2 b n c = final agg' x' l2 b n' c := by
  unfold final
  simp only [ha, hx]

/-! ### The same functions as whole arrays, over the layer's sizes (10000 nodes, 320000 edges) -/

/-- The first linear map of every node. -/
def linearArr (x : FVec Ideal ⟨2, ![10000, 256]⟩ .f32) (l1 : FVec Ideal ⟨2, ![256, 256]⟩ .f32) : FVec Ideal ⟨2, ![10000, 256]⟩ .f32 :=
  fun i => linear x l1 ⟨(i 0).val, idx2_lt0 i⟩ ⟨(i 1).val, idx2_lt1 i⟩

theorem linearArr_ix2 (x : FVec Ideal ⟨2, ![10000, 256]⟩ .f32) (l1 : FVec Ideal ⟨2, ![256, 256]⟩ .f32) (n : Fin 10000) (c : Fin 256) :
    linearArr x l1 (ix2 n c) = linear x l1 n c := rfl

/-- The message of every edge. -/
def messageArr (ea : FVec Ideal ⟨2, ![320000, 50]⟩ .f32) (ew : FVec Ideal ⟨2, ![320000, 3]⟩ .f32) (g : FVec Ideal ⟨2, ![320000, 256]⟩ .f32)
    (w1 : FVec Ideal ⟨2, ![50, 256]⟩ .f32) (b1 : FVec Ideal ⟨1, ![256]⟩ .f32) (w2 : FVec Ideal ⟨2, ![256, 256]⟩ .f32) (b2 : FVec Ideal ⟨1, ![256]⟩ .f32) :
    FVec Ideal ⟨2, ![320000, 256]⟩ .f32 :=
  fun i => message ea ew g w1 b1 w2 b2 ⟨(i 0).val, idx2_lt0 i⟩ ⟨(i 1).val, idx2_lt1 i⟩

theorem messageArr_ix2 (ea : FVec Ideal ⟨2, ![320000, 50]⟩ .f32) (ew : FVec Ideal ⟨2, ![320000, 3]⟩ .f32) (g : FVec Ideal ⟨2, ![320000, 256]⟩ .f32)
    (w1 : FVec Ideal ⟨2, ![50, 256]⟩ .f32) (b1 : FVec Ideal ⟨1, ![256]⟩ .f32) (w2 : FVec Ideal ⟨2, ![256, 256]⟩ .f32) (b2 : FVec Ideal ⟨1, ![256]⟩ .f32)
    (e : Fin 320000) (c : Fin 256) : messageArr ea ew g w1 b1 w2 b2 (ix2 e c) = message ea ew g w1 b1 w2 b2 e c := rfl

/-- The layer's output at every node. -/
def finalArr (agg x : FVec Ideal ⟨2, ![10000, 256]⟩ .f32) (l2 : FVec Ideal ⟨2, ![256, 256]⟩ .f32) (b : FVec Ideal ⟨1, ![256]⟩ .f32) :
    FVec Ideal ⟨2, ![10000, 256]⟩ .f32 :=
  fun i => final agg x l2 b ⟨(i 0).val, idx2_lt0 i⟩ ⟨(i 1).val, idx2_lt1 i⟩

theorem finalArr_ix2 (agg x : FVec Ideal ⟨2, ![10000, 256]⟩ .f32) (l2 : FVec Ideal ⟨2, ![256, 256]⟩ .f32) (b : FVec Ideal ⟨1, ![256]⟩ .f32)
    (n : Fin 10000) (c : Fin 256) : finalArr agg x l2 b (ix2 n c) = final agg x l2 b n c := rfl

end Cert.CfConv

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KernelEntries.lean ====
/-
  The kernel's three bodies, each read at one entry of its output block.

  Every body loads its blocks whole, computes, and stores one whole block. Read at an entry (p, c) of the stored
  block:
    * the first body is the product's entry: the sum over k of x[p,k] * L1[k,c];
    * the second is the message of row p of its blocks (edge attributes, offset vectors, gathered features): the
      lane sum of squares gives the edge length, the two products into zero accumulators are plain sums (a change of
      float format is the identity on the extended reals), a length-256 bias is cast to one row and broadcast down
      the rows, and the per-row envelope, a column, is broadcast across the features;
    * the third is the layer's output at row p of its blocks.
  The products' dimension records say which coordinate of each operand comes from the output entry and which from
  the summation index; those facts are decided per record.
-/
import proofs.«117941_j33208687133091_1_alg».proof.Proof.Gen.KernelIdeal.Skeleton
import proofs.«117941_j33208687133091_1_alg».proof.Proof.Spec
import proofs.«117941_j33208687133091_1_alg».proof.Proof.LibMatmulSum
import proofs.«117941_j33208687133091_1_alg».proof.Proof.LibKeepdims
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx Cert.CfConv

/-! ### The product of a 2000-by-256 matrix with a 256-by-256 one -/

theorem D0_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem D0_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem D0_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem D0_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product into a zero accumulator at entry (p, c): the sum over k of left[p,k] * right[k,c]. -/
theorem D0_apply {φ₁ φ₂ : FTy} (l : FVec Ideal S2000x256 φ₁) (r : FVec Ideal S256x256 φ₂) (p : Fin 2000) (c : Fin 256) :
    matmul dot_S2000x256_S256x256_S2000x256_1_0_0_1_n_n none l r (constant (F := Ideal) S2000x256 .f32 0x00000000#32) (ix2 p c)
      = ∑ k : Fin 256, l (ix2 p k) * r (ix2 k c) :=
  Cert.GraphConv.matmul_zero_sum dot_S2000x256_S256x256_S2000x256_1_0_0_1_n_n none rfl rfl D0_l0 D0_l1 D0_r0 D0_r1 l r (ix2 p c)

/-! ### The product of a 6400-by-50 matrix with a 50-by-256 one -/

theorem D1_l0 (i : S6400x256.Idx) (q : dot_S6400x50_S50x256_S6400x256_1_0_0_1_n_n.contr.Idx) : (dot_S6400x50_S50x256_S6400x256_1_0_0_1_n_n.lhsIdx i q 0).val = (i 0).val := by
  unfold DotDims.lhsIdx
  rw [dif_neg (show ¬(0 : Fin S6400x50.rank) ∈ dot_S6400x50_S50x256_S6400x256_1_0_0_1_n_n.lhsBatch by decide), dif_pos (show (0 : Fin S6400x50.rank) ∈ dot_S6400x50_S50x256_S6400x256_1_0_0_1_n_n.lhsNonContracting by decide)]
  rfl
theorem D1_l1 (i : S6400x256.Idx) (q : dot_S6400x50_S50x256_S6400x256_1_0_0_1_n_n.contr.Idx) : (dot_S6400x50_S50x256_S6400x256_1_0_0_1_n_n.lhsIdx i q 1).val = (q ⟨0, by decide⟩).val :=
  dot_S6400x50_S50x256_S6400x256_1_0_0_1_n_n.lhsIdx_val_of_single rfl i q
theorem D1_r0 (i : S6400x256.Idx) (q : dot_S6400x50_S50x256_S6400x256_1_0_0_1_n_n.contr.Idx) : (dot_S6400x50_S50x256_S6400x256_1_0_0_1_n_n.rhsIdx i q 0).val = (q ⟨0, by decide⟩).val :=
  dot_S6400x50_S50x256_S6400x256_1_0_0_1_n_n.rhsIdx_val_of_single rfl i q
theorem D1_r1 (i : S6400x256.Idx) (q : dot_S6400x50_S50x256_S6400x256_1_0_0_1_n_n.contr.Idx) : (dot_S6400x50_S50x256_S6400x256_1_0_0_1_n_n.rhsIdx i q 1).val = (i 1).val := by
  unfold DotDims.rhsIdx
  rw [dif_neg (show ¬(1 : Fin S50x256.rank) ∈ dot_S6400x50_S50x256_S6400x256_1_0_0_1_n_n.rhsBatch by decide), dif_pos (show (1 : Fin S50x256.rank) ∈ dot_S6400x50_S50x256_S6400x256_1_0_0_1_n_n.rhsNonContracting by decide)]
  rfl

/-- The product into a zero accumulator at entry (p, c): the sum over k of left[p,k] * right[k,c]. -/
theorem D1_apply {φ₁ φ₂ : FTy} (l : FVec Ideal S6400x50 φ₁) (r : FVec Ideal S50x256 φ₂) (p : Fin 6400) (c : Fin 256) :
    matmul dot_S6400x50_S50x256_S6400x256_1_0_0_1_n_n none l r (constant (F := Ideal) S6400x256 .f32 0x00000000#32) (ix2 p c)
      = ∑ k : Fin 50, l (ix2 p k) * r (ix2 k c) :=
  Cert.GraphConv.matmul_zero_sum dot_S6400x50_S50x256_S6400x256_1_0_0_1_n_n none rfl rfl D1_l0 D1_l1 D1_r0 D1_r1 l r (ix2 p c)

/-! ### The product of a 6400-by-256 matrix with a 256-by-256 one -/

theorem D2_l0 (i : S6400x256.Idx) (q : dot_S6400x256_S256x256_S6400x256_1_0_0_1_n_n.contr.Idx) : (dot_S6400x256_S256x256_S6400x256_1_0_0_1_n_n.lhsIdx i q 0).val = (i 0).val := by
  unfold DotDims.lhsIdx
  rw [dif_neg (show ¬(0 : Fin S6400x256.rank) ∈ dot_S6400x256_S256x256_S6400x256_1_0_0_1_n_n.lhsBatch by decide), dif_pos (show (0 : Fin S6400x256.rank) ∈ dot_S6400x256_S256x256_S6400x256_1_0_0_1_n_n.lhsNonContracting by decide)]
  rfl
theorem D2_l1 (i : S6400x256.Idx) (q : dot_S6400x256_S256x256_S6400x256_1_0_0_1_n_n.contr.Idx) : (dot_S6400x256_S256x256_S6400x256_1_0_0_1_n_n.lhsIdx i q 1).val = (q ⟨0, by decide⟩).val :=
  dot_S6400x256_S256x256_S6400x256_1_0_0_1_n_n.lhsIdx_val_of_single rfl i q
theorem D2_r0 (i : S6400x256.Idx) (q : dot_S6400x256_S256x256_S6400x256_1_0_0_1_n_n.contr.Idx) : (dot_S6400x256_S256x256_S6400x256_1_0_0_1_n_n.rhsIdx i q 0).val = (q ⟨0, by decide⟩).val :=
  dot_S6400x256_S256x256_S6400x256_1_0_0_1_n_n.rhsIdx_val_of_single rfl i q
theorem D2_r1 (i : S6400x256.Idx) (q : dot_S6400x256_S256x256_S6400x256_1_0_0_1_n_n.contr.Idx) : (dot_S6400x256_S256x256_S6400x256_1_0_0_1_n_n.rhsIdx i q 1).val = (i 1).val := by
  unfold DotDims.rhsIdx
  rw [dif_neg (show ¬(1 : Fin S256x256.rank) ∈ dot_S6400x256_S256x256_S6400x256_1_0_0_1_n_n.rhsBatch by decide), dif_pos (show (1 : Fin S256x256.rank) ∈ dot_S6400x256_S256x256_S6400x256_1_0_0_1_n_n.rhsNonContracting by decide)]
  rfl

/-- The product into a zero accumulator at entry (p, c): the sum over k of left[p,k] * right[k,c]. -/
theorem D2_apply {φ₁ φ₂ : FTy} (l : FVec Ideal S6400x256 φ₁) (r : FVec Ideal S256x256 φ₂) (p : Fin 6400) (c : Fin 256) :
    matmul dot_S6400x256_S256x256_S6400x256_1_0_0_1_n_n none l r (constant (F := Ideal) S6400x256 .f32 0x00000000#32) (ix2 p c)
      = ∑ k : Fin 256, l (ix2 p k) * r (ix2 k c) :=
  Cert.GraphConv.matmul_zero_sum dot_S6400x256_S256x256_S6400x256_1_0_0_1_n_n none rfl rfl D2_l0 D2_l1 D2_r0 D2_r1 l r (ix2 p c)

/-! ### A bias vector cast to one row and broadcast down the rows -/

theorem biasRow_apply {α : Type} {R K : ℕ} (b : (⟨1, ![K]⟩ : Shape).Idx → α)
    (h1 : (⟨1, ![K]⟩ : Shape).ShapeCasts ⟨2, ![1, K]⟩) (h2 : (⟨2, ![1, K]⟩ : Shape).Broadcasts ⟨2, ![R, K]⟩)
    (p : Fin R) (k : Fin K) :
    broadcastTo ⟨2, ![R, K]⟩ (shapeCast ⟨2, ![1, K]⟩ b h1) h2 (ix2 p k) = b (ix1 k) := by
  rw [broadcastTo_1b_ab_apply, shapeCast_a_1a_apply]

/-! ### The first body: one linear map -/

theorem pay0_apply (x0 : FVec Ideal S2000x256 .f32) (x1 : FVec Ideal S256x256 .f32) (p : Fin 2000) (c : Fin 256) :
    k0_pay1 (F := Ideal) x0 x1 (ix2 p c) = linear x0 x1 p c :=
  D0_apply x0 x1 p c

/-! ### The third body: the output layer -/

theorem pay2_apply (v0 v24 : FVec Ideal S2000x256 .f32) (v2 : FVec Ideal S256x256 .f32) (v4 : FVec Ideal S256 .f32)
    (p : Fin 2000) (c : Fin 256) :
    k2_pay1 (F := Ideal) v0 v2 v4 v24 (ix2 p c) = final v0 v24 v2 v4 p c := by
  have hz : addf (matmul (F := Ideal) dot_S2000x256_S256x256_S2000x256_1_0_0_1_n_n none (shapeCast S2000x256 v0 shapeCasts_S2000x256_S2000x256) v2
          (constant (F := Ideal) S2000x256 .f32 0x00000000#32))
        (broadcastTo S2000x256 (shapeCast S1x256 v4 shapeCasts_S256_S1x256) broadcasts_S1x256_S2000x256) (ix2 p c)
      = (∑ k : Fin 256, v0 (ix2 p k) * v2 (ix2 k c)) + v4 (ix1 c) := by
    rw [addf_apply, shapeCast_self, D0_apply, biasRow_apply]
  unfold final
  rw [← hz, ← sspK_eq]
  rfl

/-! ### The second body: the edge envelope, the filter network and the message -/

/-- The envelope column at row p: the cutoff of the row's offset vector. -/
theorem envelope_apply (v0 : FVec Ideal S6400x3 .f32) (p : Fin 6400) (u : Fin 1) :
    k1_pay2 (F := Ideal) v0 (ix2 p u) = envelope v0 p := by
  have hd : sqrt (F := Ideal) (shapeCast S6400x1 (multiReduction (F := Ideal) .add [1] S6400 (mulf v0 v0) 0x00000000#32 reduces_S6400x3_S6400 (.inl rfl) rfl)
          shapeCasts_S6400_S6400x1) (ix2 p u)
      = Ideal.sqrt (∑ q : Fin 3, v0 (ix2 p q) * v0 (ix2 p q)) := by
    show Ideal.sqrt (shapeCast S6400x1 (multiReduction (F := Ideal) .add [1] S6400 (mulf v0 v0) 0x00000000#32 reduces_S6400x3_S6400 (.inl rfl) rfl)
          shapeCasts_S6400_S6400x1 (ix2 p u)) = _
    rw [Cert.LibKeepdims.shapeCast_a_a1_apply]
    exact congrArg Ideal.sqrt
      (Cert.LibKeepdims.add_axis1_apply (mulf v0 v0) 0x00000000#32 reduces_S6400x3_S6400 (.inl rfl) rfl p)
  unfold envelope
  rw [← hd, ← mask_signed_unsigned]
  rfl

/-- The hidden layer at (p, k). -/
theorem filterHidden_apply (v17 : FVec Ideal S6400x50 .f32) (v19 : FVec Ideal S50x256 .f32) (v22 : FVec Ideal S256 .f32)
    (p : Fin 6400) (k : Fin 256) :
    k1_pay3 (F := Ideal) v17 v19 v22 (ix2 p k) = filterHidden v17 v19 v22 p k := by
  have hz : addf (matmul (F := Ideal) dot_S6400x50_S50x256_S6400x256_1_0_0_1_n_n none (truncf .bf16 v17 bitsLt_bf16_f32) (truncf .bf16 v19 bitsLt_bf16_f32)
          (constant (F := Ideal) S6400x256 .f32 0x00000000#32))
        (broadcastTo S6400x256 (shapeCast S1x256 v22 shapeCasts_S256_S1x256) broadcasts_S1x256_S6400x256) (ix2 p k)
      = (∑ j : Fin 50, v17 (ix2 p j) * v19 (ix2 j k)) + v22 (ix1 k) := by
    rw [addf_apply, D1_apply, biasRow_apply]
    rfl
  unfold filterHidden
  rw [← hz, ← sspK_eq]
  rfl

/-- The stored block at (p, c), from the envelope column and the hidden layer. -/
theorem pay1_apply (v16 : FVec Ideal S6400x1 .f32) (v41 : FVec Ideal S6400x256 .f32) (v42 : FVec Ideal S256x256 .f32)
    (v46 : FVec Ideal S256 .f32) (v52 : FVec Ideal S6400x256 .f32) (p : Fin 6400) (c : Fin 256) :
    k1_pay1 (F := Ideal) v16 v41 v42 v46 v52 (ix2 p c)
      = (((∑ k : Fin 256, v41 (ix2 p k) * v42 (ix2 k c)) + v46 (ix1 c)) * v16 (ix2 p (0 : Fin 1))) * v52 (ix2 p c) := by
  have h1 : addf (matmul (F := Ideal) dot_S6400x256_S256x256_S6400x256_1_0_0_1_n_n none (truncf .bf16 v41 bitsLt_bf16_f32) (truncf .bf16 v42 bitsLt_bf16_f32)
          (constant (F := Ideal) S6400x256 .f32 0x00000000#32))
        (broadcastTo S6400x256 (shapeCast S1x256 v46 shapeCasts_S256_S1x256) broadcasts_S1x256_S6400x256) (ix2 p c)
      = (∑ k : Fin 256, v41 (ix2 p k) * v42 (ix2 k c)) + v46 (ix1 c) := by
    rw [addf_apply, D2_apply, biasRow_apply]
    rfl
  have h2 : broadcastTo S6400x256 v16 broadcasts_S6400x1_S6400x256 (ix2 p c) = v16 (ix2 p (0 : Fin 1)) :=
    Cert.LibKeepdims.broadcastTo_a1_ab_apply v16 broadcasts_S6400x1_S6400x256 p c
  have h3 : shapeCast S6400x256 v52 shapeCasts_S6400x256_S6400x256 (ix2 p c) = v52 (ix2 p c) := by rw [shapeCast_self]
  rw [← h1, ← h2, ← h3]
  rfl

/-- The second body's stored block at (p, c) is the message of row p of its blocks. -/
theorem message_apply (x0 : FVec Ideal S6400x50 .f32) (x1 : FVec Ideal S6400x3 .f32) (x2 : FVec Ideal S6400x256 .f32)
    (x3 : FVec Ideal S50x256 .f32) (x4 : FVec Ideal S256 .f32) (x5 : FVec Ideal S256x256 .f32) (x6 : FVec Ideal S256 .f32)
    (p : Fin 6400) (c : Fin 256) :
    k1_pay1 (F := Ideal) (k1_pay2 x1) (k1_pay3 x0 x3 x4) x5 x6 x2 (ix2 p c) = message x0 x1 x2 x3 x4 x5 x6 p c := by
  rw [pay1_apply, envelope_apply]
  unfold message
  simp only [filterHidden_apply]

end Cert.KernelIdeal.KValue

end
-- ==== Proof.KernelBlocks0.lean ====
/-
  The first launch: the whole array it leaves.

  The launch has five grid points; point t reads rows 2000 t .. 2000 t + 1999 of the features and the whole weight
  matrix, and writes the same rows of the output. Row p of block t is row 2000 t + p of the array, so block t of the
  output is the product's rows 2000 t .. 2000 t + 1999, and the five blocks tile the 10000 rows: the output array is
  the product x · L1 of the arrays as the launch finds them.
-/
import proofs.«117941_j33208687133091_1_alg».proof.Proof.Gen.KernelIdeal.Frame
import proofs.«117941_j33208687133091_1_alg».proof.Proof.KernelEntries

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Cert.CfConv
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The block index maps over the five points: the row blocks move with the point, the weight block stays. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the launch finds them. -/
theorem flushed0_eq (c : Dev nD) (t : Fin cfg0.N) :
    (dat0 V c).flushed 2 t = ((cfg0.win 2).blk t).view.read (Elt Ideal) (linearArr (V c main_arg0) (V c main_arg8)) := by
  show (cfg0.win 2).cut (grid0.coords t) ((dat0 V c).after 2 t) = _
  rw [after0_2]
  unfold out0_2
  rw [View.canon_unit_zero zero2]
  simp only [View.ld_unit_zero (S := S2000x256) zero2, View.ld_unit_zero (S := S256x256) zero2]
  obtain ⟨e0, e1, e2, e3, e4, e5⟩ := index0 t
  have ht : t.val < 5 := lt_of_lt_of_eq t.isLt N_0
  funext j
  obtain ⟨p, k, rfl⟩ : ∃ (p : Fin 2000) (k : Fin 256), j = ix2 p k := ⟨j 0, j 1, eq_ix2 j⟩
  refine (pay0_apply (iblk0 V c 0 t) (iblk0 V c 1 t) p k).trans ?_
  have hp : p.val < 2000 := p.isLt
  have hw : (iblk0 V c 1 t : S256x256.Idx → EReal) = V c main_arg8 := by
    funext y
    show V c main_arg8 (((cfg0.win 1).blk t).view.emb y) = V c main_arg8 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  have hrow : ∀ k' : Fin 256, iblk0 V c 0 t (ix2 p k') = V c main_arg0 (ix2 (⟨t.val * 2000 + p.val, by omega⟩ : Fin 10000) k') := by
    intro k'
    show V c main_arg0 (((cfg0.win 0).blk t).view.emb (ix2 p k')) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k'.val = k'.val; omega
  have hemb : ((cfg0.win 2).blk t).view.emb (ix2 p k) = ix2 (⟨t.val * 2000 + p.val, by omega⟩ : Fin 10000) k := by
    funext a; apply Fin.ext
    match a with
    | ⟨0, _⟩ => show win0_2.index t (0 : Fin 2) * 2000 + 1 * p.val = t.val * 2000 + p.val; omega
    | ⟨1, _⟩ => show win0_2.index t (1 : Fin 2) * 256 + 1 * k.val = k.val; omega
  show linear (iblk0 V c 0 t) (iblk0 V c 1 t) p k
    = linearArr (V c main_arg0) (V c main_arg8) (((cfg0.win 2).blk t).view.emb (ix2 p k))
  rw [hemb, hw, linearArr_ix2]
  exact linear_congr _ _ _ p _ k hrow

/-- An index is in point t's output block iff each coordinate is in the block's range. -/
theorem mem_blk0 (t : Fin cfg0.N) (i : S10000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v4).slice (win0_2.rect t)).set ↔ _
  rw [View.set_slice_whole, Rect.mem_set_unit]
  exact Iff.rfl

/-- Every index of the output is in the block of the point its row falls in. -/
theorem cover0 (i : S10000x256.Idx) : ∃ t : Fin cfg0.N, (cfg0.win 2).flush t = true ∧ i ∈ ((cfg0.win 2).blk t).view.set := by
  have h0 : (i 0).val < 10000 := (i 0).isLt
  have h1 : (i 1).val < 256 := (i 1).isLt
  have hN : cfg0.N = 5 := N_0
  obtain ⟨t, htv⟩ : ∃ t : Fin cfg0.N, t.val = (i 0).val / 2000 := ⟨⟨(i 0).val / 2000, by rw [hN]; omega⟩, rfl⟩
  obtain ⟨e0, e1, e2, e3, e4, e5⟩ := index0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- The array the first launch leaves: the product of the features and the first weight matrix as it finds them. -/
theorem region0_array (c : Dev nD) : (dat0 V c).arrAt 2 cfg0.N = linearArr (V c main_arg0) (V c main_arg8) :=
  (dat0 V c).arrAt_eq_of_cover 2 _ (fun t _ => flushed0_eq V c t) cover0

end Cert.KernelIdeal.KValue

end
-- ==== Proof.KernelBlocks1.lean ====
/-
  The second launch: the whole array it leaves.

  Fifty grid points; point t reads rows 6400 t .. 6400 t + 6399 of the edge attributes, the offset vectors and the
  gathered features, the filter network's two weight matrices and two biases whole, and writes the same rows of the
  messages. Row p of block t is row 6400 t + p of the arrays, a message depends on its own row of the three
  row-indexed arrays only, and the fifty blocks tile the 320000 rows: the output array is the message of every edge,
  of the arrays as the launch finds them.
-/
import proofs.«117941_j33208687133091_1_alg».proof.Proof.Gen.KernelIdeal.Frame
import proofs.«117941_j33208687133091_1_alg».proof.Proof.KernelEntries

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Cert.CfConv
open Idealize.ShloMosaic.Pipeline (Dat Cfg Window)

variable (V : (c : Dev nD) → (b : Ref sig .tc) → Buf (Elt Ideal) ((c : Thread nD τ).loc b))

theorem zero2'' : (![0, 0] : Fin 2 → Nat) = fun _ => 0 := funext fun a => by fin_cases a <;> rfl
theorem zero1'' : (![0] : Fin 1 → Nat) = fun _ => 0 := funext fun a => by fin_cases a; rfl

/-- The block index maps over the fifty points: the row blocks move with the point, the weights and biases stay. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- What point t writes back is block t of the messages of the arrays as the launch finds them. -/
theorem flushed1_eq (c : Dev nD) (t : Fin cfg1.N) :
    (dat1 V c).flushed 7 t = ((cfg1.win 7).blk t).view.read (Elt Ideal)
      (messageArr (V c main_arg3) (V c main_arg2) (V c main_v11) (V c main_arg4) (V c main_arg5) (V c main_arg6) (V c main_arg7)) := by
  show (cfg1.win 7).cut (grid1.coords t) ((dat1 V c).after 7 t) = _
  rw [after1_7]
  unfold out1_7
  rw [View.canon_unit_zero zero2'']
  simp only [View.ld_unit_zero (S := S6400x50) zero2'', View.ld_unit_zero (S := S6400x3) zero2'', View.ld_unit_zero (S := S6400x256) zero2'',
    View.ld_unit_zero (S := S50x256) zero2'', View.ld_unit_zero (S := S256x256) zero2'', View.ld_unit_zero (S := S256) zero1'']
  obtain ⟨e0, e1, e2, e3, e4, e5, e6, e7, e8, e9, e10, e11, e12, e13⟩ := index1 t
  have ht : t.val < 50 := lt_of_lt_of_eq t.isLt N_1
  funext j
  obtain ⟨p, k, rfl⟩ : ∃ (p : Fin 6400) (k : Fin 256), j = ix2 p k := ⟨j 0, j 1, eq_ix2 j⟩
  refine (message_apply (iblk1 V c 0 t) (iblk1 V c 1 t) (iblk1 V c 2 t) (iblk1 V c 3 t) (iblk1 V c 4 t) (iblk1 V c 5 t) (iblk1 V c 6 t) p k).trans ?_
  have hp : p.val < 6400 := p.isLt
  have hw1 : (iblk1 V c 3 t : S50x256.Idx → EReal) = V c main_arg4 := by
    funext y
    show V c main_arg4 (((cfg1.win 3).blk t).view.emb y) = V c main_arg4 y
    refine congrArg _ (funext fun a => Fin.ext ?_)
    match a with
    | ⟨0, _⟩ => show win1_3.index t (0 : Fin 2) * 50 + 1 * (y 0).val = (y 0).val; omega
    | ⟨1, _⟩ => show win1_3.index t (1 : Fin 2) * 256 + 1 * (y 1).val = (y 1).val; omega
  have hb1 : (iblk1 V c 4 t : S256.Idx → EReal) = V c main_arg5 := by
    funext y
    show V c main_arg5 (((cfg1.win 4).blk t).view.emb y) = V c main_arg5 y
    refine congrArg _ (funext fun a => Fin.ext ?_)
    match a with
    | ⟨0, _⟩ => show win1_4.index t (0 : Fin 1) * 256 + 1 * (y 0).val = (y 0).val; omega
  have hw2 : (iblk1 V c 5 t : S256x256.Idx → EReal) = V c main_arg6 := by
    funext y
    show V c main_arg6 (((cfg1.win 5).blk t).view.emb y) = V c main_arg6 y
    refine congrArg _ (funext fun a => Fin.ext ?_)
    match a with
    | ⟨0, _⟩ => show win1_5.index t (0 : Fin 2) * 256 + 1 * (y 0).val = (y 0).val; omega
    | ⟨1, _⟩ => show win1_5.index t (1 : Fin 2) * 256 + 1 * (y 1).val = (y 1).val; omega
  have hb2 : (iblk1 V c 6 t : S256.Idx → EReal) = V c main_arg7 := by
    funext y
    show V c main_arg7 (((cfg1.win 6).blk t).view.emb y) = V c main_arg7 y
    refine congrArg _ (funext fun a => Fin.ext ?_)
    match a with
    | ⟨0, _⟩ => show win1_6.index t (0 : Fin 1) * 256 + 1 * (y 0).val = (y 0).val; omega
  have hea : ∀ k' : Fin 50, iblk1 V c 0 t (ix2 p k') = V c main_arg3 (ix2 (⟨t.val * 6400 + p.val, by omega⟩ : Fin 320000) k') := by
    intro k'
    show V c main_arg3 (((cfg1.win 0).blk t).view.emb (ix2 p k')) = _
    refine congrArg _ (funext fun a => Fin.ext ?_)
    match a with
    | ⟨0, _⟩ => show win1_0.index t (0 : Fin 2) * 6400 + 1 * p.val = t.val * 6400 + p.val; omega
    | ⟨1, _⟩ => show win1_0.index t (1 : Fin 2) * 50 + 1 * k'.val = k'.val; omega
  have hew : ∀ k' : Fin 3, iblk1 V c 1 t (ix2 p k') = V c main_arg2 (ix2 (⟨t.val * 6400 + p.val, by omega⟩ : Fin 320000) k') := by
    intro k'
    show V c main_arg2 (((cfg1.win 1).blk t).view.emb (ix2 p k')) = _
    refine congrArg _ (funext fun a => Fin.ext ?_)
    match a with
    | ⟨0, _⟩ => show win1_1.index t (0 : Fin 2) * 6400 + 1 * p.val = t.val * 6400 + p.val; omega
    | ⟨1, _⟩ => show win1_1.index t (1 : Fin 2) * 3 + 1 * k'.val = k'.val; omega
  have hg : iblk1 V c 2 t (ix2 p k) = V c main_v11 (ix2 (⟨t.val * 6400 + p.val, by omega⟩ : Fin 320000) k) := by
    show V c main_v11 (((cfg1.win 2).blk t).view.emb (ix2 p k)) = _
    refine congrArg _ (funext fun a => Fin.ext ?_)
    match a with
    | ⟨0, _⟩ => show win1_2.index t (0 : Fin 2) * 6400 + 1 * p.val = t.val * 6400 + p.val; omega
    | ⟨1, _⟩ => show win1_2.index t (1 : Fin 2) * 256 + 1 * k.val = k.val; omega
  have hemb : ((cfg1.win 7).blk t).view.emb (ix2 p k) = ix2 (⟨t.val * 6400 + p.val, by omega⟩ : Fin 320000) k := by
    funext a; apply Fin.ext
    match a with
    | ⟨0, _⟩ => show win1_7.index t (0 : Fin 2) * 6400 + 1 * p.val = t.val * 6400 + p.val; omega
    | ⟨1, _⟩ => show win1_7.index t (1 : Fin 2) * 256 + 1 * k.val = k.val; omega
  show message (iblk1 V c 0 t) (iblk1 V c 1 t) (iblk1 V c 2 t) (iblk1 V c 3 t) (iblk1 V c 4 t) (iblk1 V c 5 t) (iblk1 V c 6 t) p k
    = messageArr (V c main_arg3) (V c main_arg2) (V c main_v11) (V c main_arg4) (V c main_arg5) (V c main_arg6) (V c main_arg7)
        (((cfg1.win 7).blk t).view.emb (ix2 p k))
  rw [hemb, hw1, hb1, hw2, hb2, messageArr_ix2]
  exact message_congr _ _ _ _ _ _ _ _ _ _ p _ k hea hew hg

/-- An index is in point t's output block iff each coordinate is in the block's range. -/
theorem mem_blk1 (t : Fin cfg1.N) (i : S320000x256.Idx) :
    i ∈ ((cfg1.win 7).blk t).view.set ↔ ∀ a : Fin 2, win1_7.index t a * S6400x256.size a ≤ (i a).val
      ∧ (i a).val < win1_7.index t a * S6400x256.size a + S6400x256.size a := by
  show i ∈ ((View.whole main_v12).slice (win1_7.rect t)).set ↔ _
  rw [View.set_slice_whole, Rect.mem_set_unit]
  exact Iff.rfl

/-- Every index of the output is in the block of the point its row falls in. -/
theorem cover1 (i : S320000x256.Idx) : ∃ t : Fin cfg1.N, (cfg1.win 7).flush t = true ∧ i ∈ ((cfg1.win 7).blk t).view.set := by
  have h0 : (i 0).val < 320000 := (i 0).isLt
  have h1 : (i 1).val < 256 := (i 1).isLt
  have hN : cfg1.N = 50 := N_1
  obtain ⟨t, htv⟩ : ∃ t : Fin cfg1.N, t.val = (i 0).val / 6400 := ⟨⟨(i 0).val / 6400, by rw [hN]; omega⟩, rfl⟩
  obtain ⟨e0, e1, e2, e3, e4, e5, e6, e7, e8, e9, e10, e11, e12, e13⟩ := index1 t
  refine ⟨t, flush1_7 t, ?_⟩
  rw [mem_blk1]
  intro a
  match a with
  | ⟨0, _⟩ =>
    show win1_7.index t (0 : Fin 2) * 6400 ≤ (i 0).val ∧ (i 0).val < win1_7.index t (0 : Fin 2) * 6400 + 6400
    omega
  | ⟨1, _⟩ =>
    show win1_7.index t (1 : Fin 2) * 256 ≤ (i 1).val ∧ (i 1).val < win1_7.index t (1 : Fin 2) * 256 + 256
    omega

/-- The array the second launch leaves: the message of every edge, of the arrays as it finds them. -/
theorem region1_array (c : Dev nD) :
    (dat1 V c).arrAt 7 cfg1.N = messageArr (V c main_arg3) (V c main_arg2) (V c main_v11) (V c main_arg4) (V c main_arg5)
      (V c main_arg6) (V c main_arg7) :=
  (dat1 V c).arrAt_eq_of_cover 7 _ (fun t _ => flushed1_eq V c t) cover1

end Cert.KernelIdeal.KValue

end
-- ==== Proof.KernelBlocks2.lean ====
/-
  The third launch: the whole array it leaves.

  Five grid points; point t reads rows 2000 t .. 2000 t + 1999 of the aggregate and of the features, the whole second
  weight matrix and its bias, and writes the same rows of the output. Row p of block t is row 2000 t + p of the
  arrays, the output at a row depends on that row of the aggregate and of the features only, and the five blocks tile
  the 10000 rows: the output array is the output layer of the arrays as the launch finds them.
-/
import proofs.«117941_j33208687133091_1_alg».proof.Proof.Gen.KernelIdeal.Frame
import proofs.«117941_j33208687133091_1_alg».proof.Proof.KernelEntries

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Cert.CfConv
open Idealize.ShloMosaic.Pipeline (Dat Cfg Window)

variable (V : (c : Dev nD) → (b : Ref sig .tc) → Buf (Elt Ideal) ((c : Thread nD τ).loc b))

theorem zero2' : (![0, 0] : Fin 2 → Nat) = fun _ => 0 := funext fun a => by fin_cases a <;> rfl
theorem zero1' : (![0] : Fin 1 → Nat) = fun _ => 0 := funext fun a => by fin_cases a; rfl

/-- The block index maps over the five points: the row blocks move with the point, the weights and the bias stay. -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- What point t writes back is block t of the output layer of the arrays as the launch finds them. -/
theorem flushed2_eq (c : Dev nD) (t : Fin cfg2.N) :
    (dat2 V c).flushed 4 t = ((cfg2.win 4).blk t).view.read (Elt Ideal)
      (finalArr (V c main_v15) (V c main_arg0) (V c main_arg9) (V c main_arg10)) := by
  show (cfg2.win 4).cut (grid2.coords t) ((dat2 V c).after 4 t) = _
  rw [after2_4]
  unfold out2_4
  rw [View.canon_unit_zero zero2']
  simp only [View.ld_unit_zero (S := S2000x256) zero2', View.ld_unit_zero (S := S256x256) zero2', View.ld_unit_zero (S := S256) zero1']
  obtain ⟨e0, e1, e2, e3, e4, e5, e6, e7, e8⟩ := index2 t
  have ht : t.val < 5 := lt_of_lt_of_eq t.isLt N_2
  funext j
  obtain ⟨p, k, rfl⟩ : ∃ (p : Fin 2000) (k : Fin 256), j = ix2 p k := ⟨j 0, j 1, eq_ix2 j⟩
  refine (pay2_apply (iblk2 V c 0 t) (iblk2 V c 1 t) (iblk2 V c 2 t) (iblk2 V c 3 t) p k).trans ?_
  have hp : p.val < 2000 := p.isLt
  have hw : (iblk2 V c 2 t : S256x256.Idx → EReal) = V c main_arg9 := by
    funext y
    show V c main_arg9 (((cfg2.win 2).blk t).view.emb y) = V c main_arg9 y
    refine congrArg _ (funext fun a => Fin.ext ?_)
    match a with
    | ⟨0, _⟩ => show win2_2.index t (0 : Fin 2) * 256 + 1 * (y 0).val = (y 0).val; omega
    | ⟨1, _⟩ => show win2_2.index t (1 : Fin 2) * 256 + 1 * (y 1).val = (y 1).val; omega
  have hb : (iblk2 V c 3 t : S256.Idx → EReal) = V c main_arg10 := by
    funext y
    show V c main_arg10 (((cfg2.win 3).blk t).view.emb y) = V c main_arg10 y
    refine congrArg _ (funext fun a => Fin.ext ?_)
    match a with
    | ⟨0, _⟩ => show win2_3.index t (0 : Fin 1) * 256 + 1 * (y 0).val = (y 0).val; omega
  have hagg : ∀ k' : Fin 256, iblk2 V c 0 t (ix2 p k') = V c main_v15 (ix2 (⟨t.val * 2000 + p.val, by omega⟩ : Fin 10000) k') := by
    intro k'
    show V c main_v15 (((cfg2.win 0).blk t).view.emb (ix2 p k')) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k'.val = k'.val; omega
  have hx : iblk2 V c 1 t (ix2 p k) = V c main_arg0 (ix2 (⟨t.val * 2000 + p.val, by omega⟩ : Fin 10000) k) := by
    show V c main_arg0 (((cfg2.win 1).blk t).view.emb (ix2 p k)) = _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 256 + 1 * k.val = k.val; omega
  have hemb : ((cfg2.win 4).blk t).view.emb (ix2 p k) = ix2 (⟨t.val * 2000 + p.val, by omega⟩ : Fin 10000) k := by
    funext a; apply Fin.ext
    match a with
    | ⟨0, _⟩ => show win2_4.index t (0 : Fin 2) * 2000 + 1 * p.val = t.val * 2000 + p.val; omega
    | ⟨1, _⟩ => show win2_4.index t (1 : Fin 2) * 256 + 1 * k.val = k.val; omega
  show final (iblk2 V c 0 t) (iblk2 V c 1 t) (iblk2 V c 2 t) (iblk2 V c 3 t) p k
    = finalArr (V c main_v15) (V c main_arg0) (V c main_arg9) (V c main_arg10) (((cfg2.win 4).blk t).view.emb (ix2 p k))
  rw [hemb, hw, hb, finalArr_ix2]
  exact final_congr _ _ _ _ _ _ p _ k hagg hx

/-- An index is in point t's output block iff each coordinate is in the block's range. -/
theorem mem_blk2 (t : Fin cfg2.N) (i : S10000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v16).slice (win2_4.rect t)).set ↔ _
  rw [View.set_slice_whole, Rect.mem_set_unit]
  exact Iff.rfl

/-- Every index of the output is in the block of the point its row falls in. -/
theorem cover2 (i : S10000x256.Idx) : ∃ t : Fin cfg2.N, (cfg2.win 4).flush t = true ∧ i ∈ ((cfg2.win 4).blk t).view.set := by
  have h0 : (i 0).val < 10000 := (i 0).isLt
  have h1 : (i 1).val < 256 := (i 1).isLt
  have hN : cfg2.N = 5 := N_2
  obtain ⟨t, htv⟩ : ∃ t : Fin cfg2.N, t.val = (i 0).val / 2000 := ⟨⟨(i 0).val / 2000, by rw [hN]; omega⟩, rfl⟩
  obtain ⟨e0, e1, e2, e3, e4, e5, e6, e7, e8⟩ := index2 t
  refine ⟨t, flush2_4 t, ?_⟩
  rw [mem_blk2]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 256 ≤ (i 1).val ∧ (i 1).val < win2_4.index t (1 : Fin 2) * 256 + 256
    omega

/-- The array the third launch leaves: the output layer of the aggregate, the features, the second weight matrix and
    its bias as it finds them. -/
theorem region2_array (c : Dev nD) :
    (dat2 V c).arrAt 4 cfg2.N = finalArr (V c main_v15) (V c main_arg0) (V c main_arg9) (V c main_arg10) :=
  (dat2 V c).arrAt_eq_of_cover 4 _ (fun t _ => flushed2_eq V c t) cover2

end Cert.KernelIdeal.KValue

end
-- ==== Proof.KernelValue.lean ====
/-
  The idealized kernel's result as one function of the arguments.

  Reading the last boundary's contents at the result's buffer back through the program: the third launch leaves the
  output layer of the aggregate and the features; the aggregate is the host's scatter-add, into zeros at the
  destination ids, of what the second launch leaves, the message of every edge; the gathered features those messages
  use are the host's gather, at the source ids, of what the first launch leaves, the first linear map of every node.
  Every launch finds the argument arrays as launched.
-/
import proofs.«117941_j33208687133091_1_alg».proof.Proof.KernelRun
import proofs.«117941_j33208687133091_1_alg».proof.Proof.KernelHost
import proofs.«117941_j33208687133091_1_alg».proof.Proof.KernelBlocks0
import proofs.«117941_j33208687133091_1_alg».proof.Proof.KernelBlocks1
import proofs.«117941_j33208687133091_1_alg».proof.Proof.KernelBlocks2

noncomputable section

namespace Cert.KernelIdeal.KValue

open Cert.KernelIdeal Cert.KernelIdeal.Gen Idealize.ShloMosaic Idealize.ShloMosaic.TcCoe Idealize.SL.Sem Cert.CfConv

variable (m : (ℓ : Loc nD τ sig) → Buf (Elt Ideal) ℓ) (ρ : Dev nD → PrngReg) (c : Dev nD)

/-- The layer as the kernel computes it, of the eleven argument arrays. -/
def layer (a0 : FVec Ideal S10000x256 .f32) (a1 : IVec S2x320000 32) (a2 : FVec Ideal S320000x3 .f32) (a3 : FVec Ideal S320000x50 .f32)
    (a4 : FVec Ideal S50x256 .f32) (a5 : FVec Ideal S256 .f32) (a6 : FVec Ideal S256x256 .f32) (a7 : FVec Ideal S256 .f32)
    (a8 a9 : FVec Ideal S256x256 .f32) (a10 : FVec Ideal S256 .f32) : FVec Ideal S10000x256 .f32 :=
  finalArr
    (Host.scatterAdd scatter_S10000x256_S320000x1_S320000x256_1_0_0_1 (Cert.ReferenceIdeal.Read.val_main_v41 (F := Ideal))
      (Cert.ReferenceIdeal.Read.val_main_v42 (F := Ideal) a1)
      (messageArr a3 a2
        (Host.gather gather_S10000x256_S320000x1_S320000x256_1_0_n_n_0_1_1256 (linearArr a0 a8)
          (Cert.ReferenceIdeal.Read.val_main_v37 (F := Ideal) a1))
        a4 a5 a6 a7))
    a0 a9 a10

/-- What the first launch leaves in its output array. -/
theorem first_output : @Eq (FVec Ideal S10000x256 .f32) (W2 m ρ c (Proc.devRef .tc main_v4)) (linearArr (m ((c : Thread nD τ).loc main_arg0)) (m ((c : Thread nD τ).loc main_arg8))) := by
  rw [show W2 m ρ c (Proc.devRef .tc main_v4) = (dat0 (V1 m ρ) c).arrAt 2 cfg0.N from W2_arr m ρ c 2,
    region0_array, V1_arg0, V1_arg8]

/-- What the second launch leaves in its output array. -/
theorem second_output : @Eq (FVec Ideal S320000x256 .f32) (W4 m ρ c (Proc.devRef .tc main_v12))
    (messageArr (m ((c : Thread nD τ).loc main_arg3)) (m ((c : Thread nD τ).loc main_arg2))
      (Host.gather gather_S10000x256_S320000x1_S320000x256_1_0_n_n_0_1_1256 (linearArr (m ((c : Thread nD τ).loc main_arg0)) (m ((c : Thread nD τ).loc main_arg8)))
        (Cert.ReferenceIdeal.Read.val_main_v37 (F := Ideal) (m ((c : Thread nD τ).loc main_arg1))))
      (m ((c : Thread nD τ).loc main_arg4)) (m ((c : Thread nD τ).loc main_arg5)) (m ((c : Thread nD τ).loc main_arg6)) (m ((c : Thread nD τ).loc main_arg7))) := by
  rw [show W4 m ρ c (Proc.devRef .tc main_v12) = (dat1 (V3 m ρ) c).arrAt 7 cfg1.N from W4_arr m ρ c 7,
    region1_array, V3_arg3, V3_arg2, V3_arg4, V3_arg5, V3_arg6, V3_arg7,
    show V3 m ρ c main_v11 = _ from W3_v11 m ρ c, first_output]

/-- The last boundary's contents at the result's buffer: the layer of the arguments. -/
theorem boundary_value : @Eq (FVec Ideal S10000x256 .f32) (W6 m ρ c (Proc.devRef .tc main_v16))
    (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [show W6 m ρ c (Proc.devRef .tc main_v16) = (dat2 (V5 m ρ) c).arrAt 4 cfg2.N from W6_arr m ρ c 4,
    region2_array, V5_arg0, V5_arg9, V5_arg10,
    show V5 m ρ c main_v15 = _ from W5_v15 m ρ c, second_output]
  rfl

/-- The idealized kernel's run: every weakly fair execution terminates without a fault, the result array ends at the
    layer of the arguments, and the arguments end as launched. -/
theorem run : θ_run defs (onTc (τ := τ) (main (F := Ideal))) ⟨m, fun _ => 0, ρ⟩ (fun r => ∀ c : Dev nD,
      r.2.mem ((c.tc : Thread nD τ).loc main_v16)
        = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (boundary_value m ρ c), (h c).2⟩) (run_boundary m ρ)

end Cert.KernelIdeal.KValue

end
-- ==== Proof.LibRowScatter.lean ====
/-
Row gather and row scatter-add of a matrix, read at an index.

`x[idx]` on the rows of a matrix `x : [N, C]` at an integer vector `idx : [E]` is a `stablehlo.gather` with offset_dims
`[1]`, collapsed_slice_dims `[0]`, start_index_map `[0]`, index_vector_dim 1 and slice_sizes `[1, C]` over the indices as
`[E, 1]`; a segment sum of `data : [E, C]` by `ids : [E]` into `N` rows is a `stablehlo.scatter` with an add body,
update_window_dims `[1]`, inserted_window_dims `[0]`, scatter_dims_to_operand_dims `[0]` and index_vector_dim 1 over the
ids as `[E, 1]`. This file gives each of the two, at the extended reals for the scatter, in closed form at an index.
-/
import Idealize.ShloMosaic.Lib.ValueIdx
import Idealize.ShloMosaic.PureOps.Ideal

noncomputable section

open scoped BigOperators

namespace Idealize.ShloMosaic.RowScatter

open Idealize.ShloMosaic Idealize.ShloMosaic.ValueIdx

/-! ## Row gather -/

section Gather
variable {α : Type}

/-- The dimension numbers of a row gather for an operand `[N, C]`, start indices `[E, 1]` and result `[E, C]`: the
    row axis is collapsed and indexed, the column axis is the one offset axis, a slice is one whole row. Their
    conditions `wf` are a parameter, so that any record with these fields is an instance whatever its proof. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    at the result's own column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the row axis: collapsed, so no offset; not a batching axis; its start is the clamped index
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not indexed, so its start is 0; not a batching axis; its offset is the result's column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬ (1 : Fin 2) = 0 by decide))]
    have hk : (1 : Fin 2) ∈ (rowGatherDims N E C wf).sKept :=
      (GatherDims.mem_sKept _ _).mpr ⟨fun h => absurd (List.mem_singleton.mp h) (show ¬ (1 : Fin 2) = 0 by decide), List.not_mem_nil⟩
    have hoff : (rowGatherDims N E C wf).offCoord (ix2 e c) 1 = c.val := by
      unfold GatherDims.offCoord
      rw [dif_pos hk]
      rfl
    rw [hst, hoff]
    simp only [Nat.add_zero, Nat.zero_add]

end Gather

/-! ## Row scatter-add -/

section Scatter

/-- The dimension numbers of a row scatter for an operand `[N, C]`, scatter indices `[E, 1]` and updates `[E, C]`: the
    row axis is the inserted, indexed one, the column axis is the one window axis, an update is one whole row. Their
    conditions `wf` are a parameter, so that any record with these fields is an instance whatever its proof. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update row's id `idx[j₀, 0]`, read signed and not clamped. -/
theorem rowScatter_start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no scatter index names, the window starts at 0. -/
theorem rowScatter_start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    fun h => absurd (List.mem_singleton.mp h) (show ¬ (1 : Fin 2) = 0 by decide))]

/-- The row axis is inserted: the window has no extent there. -/
theorem rowScatter_window_row (j : (⟨2, ![E, C]⟩ : Shape).Idx) : (rowScatterDims N E C wf).window j 0 = 0 := by
  unfold ScatterDims.window
  rw [dif_neg]
  intro h
  have h' : (0 : Fin 2) ∉ ([0] : List (Fin 2)) := by
    simpa [ScatterDims.sKept, Shape.kept, List.mem_filter] using h
  exact h' (List.mem_singleton.mpr rfl)

/-- On the column axis the window coordinate is the update's own column. -/
theorem rowScatter_window_col (j : (⟨2, ![E, C]⟩ : Shape).Idx) : (rowScatterDims N E C wf).window j 1 = (j 1).val := by
  unfold ScatterDims.window
  have hk : (1 : Fin 2) ∈ (rowScatterDims N E C wf).sKept := by
    simp [ScatterDims.sKept, Shape.kept, List.mem_filter]
  rw [dif_pos hk]
  rfl

/-- WHERE AN UPDATE ELEMENT LANDS: update `(j₀, j₁)` lands on operand element `(n, c)` exactly when its row's id, read
    signed, is `n` and its column is `c`; an id outside `[0, N)` lands nowhere. -/
theorem rowScatter_resultIdx_iff (idx : IVec ⟨2, ![E, 1]⟩ w) (j : (⟨2, ![E, C]⟩ : Shape).Idx) (n : Fin N) (c : Fin C) :
    (rowScatterDims N E C wf).resultIdx? j idx = some (ix2 n c)
      ↔ (idx (ix2 (j 0) (0 : Fin 1))).toInt = (n.val : Int) ∧ j 1 = c := by
  unfold ScatterDims.resultIdx?
  constructor
  · intro h
    split at h
    · have hf := Option.some.inj h
      have h0 := congrArg Fin.val (congrFun hf 0)
      have h1 := congrArg Fin.val (congrFun hf 1)
      rename_i hall
      have ha0 := hall 0
      have ha1 := hall 1
      simp only [rowScatter_start_row, rowScatter_start_col, rowScatter_window_row, rowScatter_window_col] at h0 h1 ha0 ha1
      refine ⟨?_, Fin.ext ?_⟩
      · change ((idx (ix2 (j 0) (0 : Fin 1))).toInt + ((0 : Nat) : Int)).toNat = n.val at h0
        omega
      · change ((0 : Int) + ((j 1).val : Int)).toNat = c.val at h1
        omega
    · cases h
  · rintro ⟨h0, h1⟩
    have hall : ∀ a : Fin 2, 0 ≤ (rowScatterDims N E C wf).start j idx a + (rowScatterDims N E C wf).window j a
        ∧ (rowScatterDims N E C wf).start j idx a + (rowScatterDims N E C wf).window j a
          < (⟨2, ![N, C]⟩ : Shape).size a := by
      intro a
      match a with
      | ⟨0, _⟩ =>
        show 0 ≤ (rowScatterDims N E C wf).start j idx 0 + (rowScatterDims N E C wf).window j 0
          ∧ (rowScatterDims N E C wf).start j idx 0 + (rowScatterDims N E C wf).window j 0 < (N : Int)
        rw [rowScatter_start_row, rowScatter_window_row, h0]
        have := n.isLt
        omega
      | ⟨1, _⟩ =>
        show 0 ≤ (rowScatterDims N E C wf).start j idx 1 + (rowScatterDims N E C wf).window j 1
          ∧ (rowScatterDims N E C wf).start j idx 1 + (rowScatterDims N E C wf).window j 1 < (C : Int)
        rw [rowScatter_start_col, rowScatter_window_col]
        have := idx2_lt1 j
        omega
    rw [dif_pos hall]
    congr 1
    funext a
    refine Fin.ext ?_
    match a with
    | ⟨0, _⟩ =>
      show ((rowScatterDims N E C wf).start j idx 0 + (rowScatterDims N E C wf).window j 0).toNat = n.val
      rw [rowScatter_start_row, rowScatter_window_row, h0]
      omega
    | ⟨1, _⟩ =>
      show ((rowScatterDims N E C wf).start j idx 1 + (rowScatterDims N E C wf).window j 1).toNat = c.val
      rw [rowScatter_start_col, rowScatter_window_col, ← h1]
      omega

/-- THE ROW SCATTER-ADD READ AT `(n, c)`: the operand element plus the sum, over the update rows `e` whose id
    `idx[e, 0]`, read signed and not clamped, is `n`, of the update at `(e, c)`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hterm : ∀ c' : Fin C,
      (if (rowScatterDims N E C wf).resultIdx? (ix2 e c') idx = some (ix2 n c) then upd (ix2 e c') else 0)
        = if c' = c then (if (idx (ix2 e (0 : Fin 1))).toInt = (n.val : Int) then upd (ix2 e c) else 0) else 0 := by
    intro c'
    have hiff := rowScatter_resultIdx_iff wf idx (ix2 e c') n c
    change _ ↔ (idx (ix2 e (0 : Fin 1))).toInt = (n.val : Int) ∧ c' = c at hiff
    by_cases hc : c' = c
    · subst hc
      rw [if_pos rfl]
      exact if_congr (hiff.trans (and_iff_left rfl)) rfl rfl
    · rw [if_neg hc, if_neg (fun h => hc (hiff.mp h).2)]
  rw [Finset.sum_congr rfl (fun c' _ => hterm c'), Finset.sum_ite_eq' Finset.univ c]
  rw [if_pos (Finset.mem_univ c)]

end Scatter

/-! ## A sum over `Fin (E + E)` in two halves -/

/-- A sum over `Fin (E + E)` is the sum over the first `E` indices plus the sum over the last `E` (Mathlib's
    `Fin.sum_univ_add` at equal halves). -/
theorem sum_fin_add_self {M : Type*} [AddCommMonoid M] (E : Nat) (f : Fin (E + E) → M) :
    ∑ e, f e = ∑ e : Fin E, f (Fin.castAdd E e) + ∑ e : Fin E, f (Fin.natAdd E e) :=
  Fin.sum_univ_add f

end Idealize.ShloMosaic.RowScatter

end
-- ==== Proof.RefValue.lean ====
/-
  The idealized reference, stage by stage, as the layer's functions.

  The reference computes the edge length by a row sum of squares and a square root, the envelope with the angle
  (d * P) / 2, the filter network by two matrix products with a shifted softplus between, gathers the source nodes'
  features and only then applies the first linear map, multiplies, adds the messages into zeros at the destination
  ids, and applies the output layer. Read at an entry each stage is the layer's function of the arguments; the one
  rearrangement is that a row gather followed by a product with a fixed matrix is the gather of the product's rows:
  both are, at (e, c), the sum over k of x[j(e), k] * L1[k, c] with j(e) the clamped source id.
-/
import proofs.«117941_j33208687133091_1_alg».proof.Proof.Gen.ReferenceIdeal.Read
import proofs.«117941_j33208687133091_1_alg».proof.Proof.Spec
import proofs.«117941_j33208687133091_1_alg».proof.Proof.LibRowScatter

noncomputable section

namespace Cert.ReferenceIdeal.RefValue

open Cert.ReferenceIdeal Cert.ReferenceIdeal.Read Idealize.ShloMosaic Idealize.ShloMosaic.ValueIdx Cert.CfConv
open Idealize.ShloMosaic.RowScatter

/-! ### The edge envelope -/

theorem envelope_eq (x2 : FVec Ideal S320000x3 .f32) (e : Fin 320000) :
    val_main_v13 (F := Ideal) x2 (ix1 e) = envelope x2 e := by
  have hsum : val_main_call0_v1 (F := Ideal) x2 (ix1 e) = ∑ q : Fin 3, x2 (ix2 e q) * x2 (ix2 e q) := by
    rw [val_main_call0_v1_apply]
    show Ideal.ofBits .f32 0x00000000#32 + ∑ k : Fin 3, x2 (idx_main_call0_v1 (ix1 e) k) * x2 (idx_main_call0_v1 (ix1 e) k) = _
    rw [zero_word, zero_add]
    refine Finset.sum_congr rfl fun q _ => ?_
    rw [show idx_main_call0_v1 (ix1 e) q = ix2 e q from funext fun a => Fin.ext (by match a with | ⟨0, _⟩ => rfl | ⟨1, _⟩ => rfl)]
  simp only [val_main_v13_apply, val_main_v9_apply, val_main_v8_apply, val_main_cst_2_apply, val_main_v7_apply, val_main_v6_apply,
    val_main_cst_1_apply, val_main_v5_apply, val_main_v4_apply, val_main_v3_apply, val_main_cst_0_apply, val_main_v2_apply,
    val_main_v1_apply, val_main_cst_apply, val_main_v12_apply, val_main_v11_apply, val_main_v10_apply, val_main_cst_3_apply,
    val_main_v0_apply, hsum]
  unfold envelope
  rw [← half_pi]
  rfl

/-! ### The filter network's hidden layer -/

theorem hidden_eq (x3 : FVec Ideal S320000x50 .f32) (x4 : FVec Ideal S50x256 .f32) (x5 : FVec Ideal S256 .f32)
    (e : Fin 320000) (k : Fin 256) :
    val_main_v20 (F := Ideal) x3 x4 x5 (ix2 e k) = filterHidden x3 x4 x5 e k := by
  have hz : val_main_v17 (F := Ideal) x3 x4 x5 (ix2 e k) = (∑ j : Fin 50, x3 (ix2 e j) * x4 (ix2 j k)) + x5 (ix1 k) := by
    show val_main_v14 (F := Ideal) x3 x4 (ix2 e k) + val_main_v16 (F := Ideal) x5 (ix2 e k) = _
    rw [val_main_v14_apply, val_main_v16_apply, val_main_v15_apply]
    rw [show idx_main_v15 (idx_main_v16 (ix2 e k)) = ix1 k from funext fun a => Fin.ext (by match a with | ⟨0, _⟩ => rfl)]
    refine congrArg (· + x5 (ix1 k)) (Finset.sum_congr rfl fun j _ => ?_)
    rw [show lidx_main_v14 (ix2 e k) j = ix2 e j from funext fun a => Fin.ext (by match a with | ⟨0, _⟩ => rfl | ⟨1, _⟩ => rfl),
      show ridx_main_v14 (ix2 e k) j = ix2 j k from funext fun a => Fin.ext (by match a with | ⟨0, _⟩ => rfl | ⟨1, _⟩ => rfl)]
  unfold filterHidden
  rw [← hz]
  rfl

/-! ### A row gather followed by a product is the gather of the product's rows -/

theorem gather_rows {α : Type} (x : S10000x256.Idx → α) (idx : IVec S320000x1 32) (e : Fin 320000) (c : Fin 256) :
    Host.gather gather_S10000x256_S320000x1_S320000x256_1_0_n_n_0_1_1256 x idx (ix2 e c)
      = x (ix2 (⟨min (idx (ix2 e (0 : Fin 1))).toInt.toNat (10000 - 1), by omega⟩ : Fin 10000) c) :=
  rowGather_apply (N := 10000) (E := 320000) (C := 256) (by decide)
    gather_S10000x256_S320000x1_S320000x256_1_0_n_n_0_1_1256.wf x idx e c

theorem gathered_eq (x0 : FVec Ideal S10000x256 .f32) (x1 : IVec S2x320000 32) (x8 : FVec Ideal S256x256 .f32) :
    val_main_v39 (F := Ideal) x0 x1 x8
      = Host.gather gather_S10000x256_S320000x1_S320000x256_1_0_n_n_0_1_1256 (linearArr x0 x8) (val_main_v37 (F := Ideal) x1) := by
  funext i
  obtain ⟨e, c, rfl⟩ : ∃ (e : Fin 320000) (c : Fin 256), i = ix2 e c := ⟨i 0, i 1, eq_ix2 i⟩
  rw [val_main_v39_apply, gather_rows, linearArr_ix2]
  unfold linear
  refine Finset.sum_congr rfl fun k _ => ?_
  rw [show lidx_main_v39 (ix2 e c) k = ix2 e k from funext fun a => Fin.ext (by match a with | ⟨0, _⟩ => rfl | ⟨1, _⟩ => rfl),
    show ridx_main_v39 (ix2 e c) k = ix2 k c from funext fun a => Fin.ext (by match a with | ⟨0, _⟩ => rfl | ⟨1, _⟩ => rfl)]
  unfold val_main_v38
  rw [gather_rows]

/-! ### The messages -/

theorem message_eq (x0 : FVec Ideal S10000x256 .f32) (x1 : IVec S2x320000 32) (x2 : FVec Ideal S320000x3 .f32) (x3 : FVec Ideal S320000x50 .f32)
    (x4 : FVec Ideal S50x256 .f32) (x5 : FVec Ideal S256 .f32) (x6 : FVec Ideal S256x256 .f32) (x7 : FVec Ideal S256 .f32)
    (x8 : FVec Ideal S256x256 .f32) :
    val_main_v40 (F := Ideal) x0 x1 x2 x3 x4 x5 x6 x7 x8 = messageArr x3 x2 (val_main_v39 (F := Ideal) x0 x1 x8) x4 x5 x6 x7 := by
  funext i
  obtain ⟨e, c, rfl⟩ : ∃ (e : Fin 320000) (c : Fin 256), i = ix2 e c := ⟨i 0, i 1, eq_ix2 i⟩
  have h21 : val_main_v21 (F := Ideal) x3 x4 x5 x6 (ix2 e c) = ∑ k : Fin 256, filterHidden x3 x4 x5 e k * x6 (ix2 k c) := by
    rw [val_main_v21_apply]
    refine Finset.sum_congr rfl fun k _ => ?_
    rw [show lidx_main_v21 (ix2 e c) k = ix2 e k from funext fun a => Fin.ext (by match a with | ⟨0, _⟩ => rfl | ⟨1, _⟩ => rfl),
      show ridx_main_v21 (ix2 e c) k = ix2 k c from funext fun a => Fin.ext (by match a with | ⟨0, _⟩ => rfl | ⟨1, _⟩ => rfl), hidden_eq]
  have h23 : val_main_v23 (F := Ideal) x7 (ix2 e c) = x7 (ix1 c) := by
    rw [val_main_v23_apply, val_main_v22_apply]
    rw [show idx_main_v22 (idx_main_v23 (ix2 e c)) = ix1 c from funext fun a => Fin.ext (by match a with | ⟨0, _⟩ => rfl)]
  have h26 : val_main_v26 (F := Ideal) x2 (ix2 e c) = envelope x2 e := by
    rw [val_main_v26_apply, val_main_v25_apply]
    rw [show idx_main_v25 (idx_main_v26 (ix2 e c)) = ix1 e from funext fun a => Fin.ext (by match a with | ⟨0, _⟩ => rfl), envelope_eq]
  rw [messageArr_ix2]
  unfold message
  rw [← h21, ← h23, ← h26]
  rfl

/-! ### The output layer -/

theorem final_eq (x0 : FVec Ideal S10000x256 .f32) (x1 : IVec S2x320000 32) (x2 : FVec Ideal S320000x3 .f32) (x3 : FVec Ideal S320000x50 .f32)
    (x4 : FVec Ideal S50x256 .f32) (x5 : FVec Ideal S256 .f32) (x6 : FVec Ideal S256x256 .f32) (x7 : FVec Ideal S256 .f32)
    (x8 : FVec Ideal S256x256 .f32) (x9 : FVec Ideal S256x256 .f32) (x10 : FVec Ideal S256 .f32) :
    val_main_v51 (F := Ideal) x0 x1 x2 x3 x4 x5 x6 x7 x8 x9 x10 = finalArr (val_main_v43 (F := Ideal) x0 x1 x2 x3 x4 x5 x6 x7 x8) x0 x9 x10 := by
  funext i
  obtain ⟨n, c, rfl⟩ : ∃ (n : Fin 10000) (c : Fin 256), i = ix2 n c := ⟨i 0, i 1, eq_ix2 i⟩
  have hz : val_main_v47 (F := Ideal) x0 x1 x2 x3 x4 x5 x6 x7 x8 x9 x10 (ix2 n c)
      = (∑ k : Fin 256, val_main_v43 (F := Ideal) x0 x1 x2 x3 x4 x5 x6 x7 x8 (ix2 n k) * x9 (ix2 k c)) + x10 (ix1 c) := by
    show val_main_v44 (F := Ideal) x0 x1 x2 x3 x4 x5 x6 x7 x8 x9 (ix2 n c) + val_main_v46 (F := Ideal) x10 (ix2 n c) = _
    rw [val_main_v44_apply, val_main_v46_apply, val_main_v45_apply]
    rw [show idx_main_v45 (idx_main_v46 (ix2 n c)) = ix1 c from funext fun a => Fin.ext (by match a with | ⟨0, _⟩ => rfl)]
    refine congrArg (· + x10 (ix1 c)) (Finset.sum_congr rfl fun k _ => ?_)
    rw [show lidx_main_v44 (ix2 n c) k = ix2 n k from funext fun a => Fin.ext (by match a with | ⟨0, _⟩ => rfl | ⟨1, _⟩ => rfl),
      show ridx_main_v44 (ix2 n c) k = ix2 k c from funext fun a => Fin.ext (by match a with | ⟨0, _⟩ => rfl | ⟨1, _⟩ => rfl)]
  simp only [val_main_v51_apply, val_main_v50_apply, val_main_v49_apply, val_main_cst_7_apply, val_main_v48_apply,
    val_main_call2_v4_apply, val_main_call2_v3_apply, val_main_call2_v2_apply, val_main_call2_cst_apply, val_main_call2_v6_apply,
    val_main_call2_v5_apply, val_main_call2_v11_apply, val_main_call2_v1_apply, val_main_call2_v0_apply, val_main_call2_v10_apply,
    val_main_call2_v9_apply, val_main_call2_v8_apply, val_main_call2_v7_apply, hz]
  rw [finalArr_ix2]
  unfold final ssp
  generalize (∑ k : Fin 256, val_main_v43 (F := Ideal) x0 x1 x2 x3 x4 x5 x6 x7 x8 (ix2 n k) * x9 (ix2 k c)) + x10 (ix1 c) = z
  generalize x0 (ix2 n c) = y
  simp only [Ideal.addf_def, Ideal.subf_def, Ideal.maximumf_def, Ideal.hostUnary_log1p_def, Ideal.hostUnary_exp_def,
    Ideal.hostNegf_def, Ideal.hostAbsf_def, Ideal.negf_def, Ideal.ofBits_def]
  rfl

end Cert.ReferenceIdeal.RefValue

end
-- ==== Proof.lean ====
/-
  The kernel-equivalence certificate of a continuous-filter convolution layer.

  Both programs compute, for node features x, an edge list (destination ids i, source ids j), edge offset vectors and
  edge attributes,
      out = x + ssp (agg · L2 + b),   agg[n] = sum over the edges e with i(e) = n of message(e),
      message(e) = ((ssp (ea[e] · W1 + b1) · W2 + b2) * envelope(e)) * (x · L1)[j(e)],
  with ssp the shifted softplus and envelope the cosine cutoff of the edge length. The kernel applies the first linear
  map to the 10000 nodes and gathers its rows; the reference gathers the nodes' features and applies the map to the
  320000 gathered rows: at an entry both are the same sum. The kernel's angle is d * (P/2) and the reference's
  (d * P) / 2, with P the single-precision word nearest to pi, whose half is again a word. The two spellings of the
  softplus guard agree on the extended reals. No step needs the inputs finite. The kernel's three launches each leave
  one whole-array function of what they find (their blocks tile their outputs), the host's gather and scatter-add are
  the same operations in both programs, and the two results are one function of the arguments.
-/
import proofs.«117941_j33208687133091_1_alg».proof.Defs
import proofs.«117941_j33208687133091_1_alg».proof.Proof.Gen.Kernel
import proofs.«117941_j33208687133091_1_alg».proof.Proof.Gen.Kernel.Frame
import proofs.«117941_j33208687133091_1_alg».proof.Proof.Gen.KernelIdeal
import proofs.«117941_j33208687133091_1_alg».proof.Proof.Gen.KernelIdeal.Frame
import proofs.«117941_j33208687133091_1_alg».proof.Proof.Gen.ReferenceIdeal
import proofs.«117941_j33208687133091_1_alg».proof.Proof.Gen.ReferenceIdeal.Read
import proofs.«117941_j33208687133091_1_alg».proof.Proof.Gen.Pre_finite_inputs
import proofs.«117941_j33208687133091_1_alg».proof.Proof.KernelValue
import proofs.«117941_j33208687133091_1_alg».proof.Proof.RefValue
import Idealize.ShloMosaic.Adequacy
import Idealize.ShloMosaic.Init

noncomputable section

namespace Cert.Proof

open Idealize.ShloMosaic Idealize.ShloMosaic.TcCoe Idealize.SL.Sem

/-- The reference's result term is the layer as the kernel computes it: the output layers agree once the aggregates
    do, the aggregates are one scatter-add of the messages, and the messages agree once the gathered features do. -/
theorem layer_eq (a0 : FVec Ideal Cert.KernelIdeal.S10000x256 .f32) (a1 : IVec Cert.KernelIdeal.S2x320000 32)
    (a2 : FVec Ideal Cert.KernelIdeal.S320000x3 .f32) (a3 : FVec Ideal Cert.KernelIdeal.S320000x50 .f32)
    (a4 : FVec Ideal Cert.KernelIdeal.S50x256 .f32) (a5 : FVec Ideal Cert.KernelIdeal.S256 .f32)
    (a6 : FVec Ideal Cert.KernelIdeal.S256x256 .f32) (a7 : FVec Ideal Cert.KernelIdeal.S256 .f32)
    (a8 a9 : FVec Ideal Cert.KernelIdeal.S256x256 .f32) (a10 : FVec Ideal Cert.KernelIdeal.S256 .f32) :
    Cert.ReferenceIdeal.Read.val_main_v51 (F := Ideal) a0 a1 a2 a3 a4 a5 a6 a7 a8 a9 a10 = Cert.KernelIdeal.KValue.layer a0 a1 a2 a3 a4 a5 a6 a7 a8 a9 a10 := by
  rw [Cert.ReferenceIdeal.RefValue.final_eq]
  unfold Cert.KernelIdeal.KValue.layer Cert.ReferenceIdeal.Read.val_main_v43
  rw [Cert.ReferenceIdeal.RefValue.message_eq, Cert.ReferenceIdeal.RefValue.gathered_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the layer of the arguments in their result. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v51_eq, h0, h1, h2, h3, h4, h5, h6, h7, h8, h9, h10]
  exact layer_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
